-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S2048x512 : Shape := ⟨2, ![2048, 512]⟩
abbrev S512x2048 : Shape := ⟨2, ![512, 2048]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S8x8192x512 .f32) (main_arg1 : FVec F S2048x512 .f32) (main_arg2 : FVec F S512x2048 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  main_v13
-- ==== Kernel.lean ====
abbrev S8x8192x512 : Shape := ⟨3, ![8, 8192, 512]⟩
abbrev S2048x512 : Shape := ⟨2, ![2048, 512]⟩
abbrev S512x2048 : Shape := ⟨2, ![512, 2048]⟩
abbrev S_ : Shape := ⟨0, ![]⟩
abbrev S65536x512 : Shape := ⟨2, ![65536, 512]⟩
abbrev S512x512 : Shape := ⟨2, ![512, 512]⟩
abbrev S512 : Shape := ⟨1, ![512]⟩
abbrev S512x1 : Shape := ⟨2, ![512, 1]⟩

abbrev nBuf : Space → Nat
  | .hbm => 50
  | .vmem => 6
  | .smem => 0
  | _ => 0

abbrev bufTy : (tb : Table) → Fin (tcTables nBuf tb) → BufTy
  | .hbm, ⟨0, _⟩ => ⟨S8x8192x512, .f32⟩
  | .hbm, ⟨1, _⟩ => ⟨S2048x512, .f32⟩
  | .hbm, ⟨2, _⟩ => ⟨S512x2048, .f32⟩
  | .hbm, ⟨3, _⟩ => ⟨S2048x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .bf16⟩
  | .hbm, ⟨25, _⟩ => ⟨S512x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S512x2048, .bf16⟩
  | .hbm, ⟨47, _⟩ => ⟨S65536x512, .f32⟩
  | .hbm, ⟨48, _⟩ => ⟨S65536x512, .f32⟩
  | .hbm, ⟨49, _⟩ => ⟨S8x8192x512, .f32⟩
  | .local _ .vmem, ⟨0, _⟩ => ⟨S512x512, .f32⟩
  | .local _ .vmem, ⟨1, _⟩ => ⟨S512x512, .f32⟩
  | .local _ .vmem, ⟨2, _⟩ => ⟨S2048x512, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_cst_6 : Ref sig .tc := ⟨.hbm, 30, rfl⟩
abbrev main_call3_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_cst_8 : Ref sig .tc := ⟨.hbm, 37, rfl⟩
abbrev main_call5_v0 : Ref sig .tc := ⟨.hbm, 38, rfl⟩
abbrev main_call5_v1 : Ref sig .tc := ⟨.hbm, 39, rfl⟩
abbrev main_call5_v2 : Ref sig .tc := ⟨.hbm, 40, rfl⟩
abbrev main_call5_v3 : Ref sig .tc := ⟨.hbm, 41, rfl⟩
abbrev main_call5_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x512_S_d0_1 : S2048x512.ReducesTo [0, 1] S_
  h_S_ : 0 < S_.numel
  bcast_S_S2048x512 : S_.BroadcastsInDim S2048x512 (![] : Fin 0 → Fin S2048x512.rank)
  bitsLt_bf16_f32 : FTy.bits .bf16 < FTy.bits .f32
  reducesTo_S512x2048_S_d0_1 : S512x2048.ReducesTo [0, 1] S_
  bcast_S_S512x2048 : S_.BroadcastsInDim S512x2048 (![] : Fin 0 → Fin S512x2048.rank)
  shapeCasts_S8x8192x512_S65536x512 : S8x8192x512.ShapeCasts S65536x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S512x2048_S512 : S512x2048.Reduces [1] S512
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S65536x512_S8x8192x512 : S65536x512.ShapeCasts S8x8192x512
  dot_S512x512_S2048x512_S512x2048_1_1_0_0_n_n_wf : DotDims.WF S512x512 S2048x512 S512x2048 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S65536x512.size a
  hwx0_3 : ∀ i : grid0.Coords, EltTy.bits .f32 = 32 ∨ (Rect.block (s := S65536x512) S512x512.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v22) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S2048x512 : Shape := ⟨2, ![2048, 512]⟩
abbrev S512x2048 : Shape := ⟨2, ![512, 2048]⟩
abbrev S_ : Shape := ⟨0, ![]⟩
abbrev S8x8192 : Shape := ⟨2, ![8, 8192]⟩
abbrev S8x8192x1 : Shape := ⟨3, ![8, 8192, 1]⟩
abbrev S8x8192x2048 : Shape := ⟨3, ![8, 8192, 2048]⟩

abbrev nBuf : Space → Nat
  | .hbm => 117
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S2048x512, .f32⟩
  | .hbm, ⟨2, _⟩ => ⟨S512x2048, .f32⟩
  | .hbm, ⟨3, _⟩ => ⟨S2048x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S8x8192x512, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S_, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S_, .f32⟩
  | .hbm, ⟨35, _⟩ => ⟨S8x8192x1, .f32⟩
  | .hbm, ⟨36, _⟩ => ⟨S8x8192x1, .f32⟩
  | .hbm, ⟨37, _⟩ => ⟨S8x8192x512, .f32⟩
  | .hbm, ⟨38, _⟩ => ⟨S8x8192x512, .f32⟩
  | .hbm, ⟨39, _⟩ => ⟨S8x8192x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x8192x512, .f32⟩
  | .hbm, ⟨44, _⟩ => ⟨S8x8192x512, .f32⟩
  | .hbm, ⟨45, _⟩ => ⟨S_, .f32⟩
  | .hbm, ⟨46, _⟩ => ⟨S8x8192x512, .f32⟩
  | .hbm, ⟨47, _⟩ => ⟨S8x8192x512, .f32⟩
  | .hbm, ⟨48, _⟩ => ⟨S8x8192x512, .f32⟩
  | .hbm, ⟨49, _⟩ => ⟨S8x8192x512, .f32⟩
  | .hbm, ⟨50, _⟩ => ⟨S8x8192x512, .f32⟩
  | .hbm, ⟨51, _⟩ => ⟨S8x8192x512, .f32⟩
  | .hbm, ⟨52, _⟩ => ⟨S8x8192x2048, .f32⟩
  | .hbm, ⟨53, _⟩ => ⟨S_, .f32⟩
  | .hbm, ⟨54, _⟩ => ⟨S8x8192x2048, .f32⟩
  | .hbm, ⟨55, _⟩ => ⟨S8x8192x2048, .f32⟩
  | .hbm, ⟨56, _⟩ => ⟨S8x8192x2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8x8192x2048, .f32⟩
  | .hbm, ⟨61, _⟩ => ⟨S8x8192x2048, .f32⟩
  | .hbm, ⟨62, _⟩ => ⟨S_, .f32⟩
  | .hbm, ⟨63, _⟩ => ⟨S8x8192x2048, .f32⟩
  | .hbm, ⟨64, _⟩ => ⟨S8x8192x2048, .f32⟩
  | .hbm, ⟨65, _⟩ => ⟨S8x8192x2048, .f32⟩
  | .hbm, ⟨66, _⟩ => ⟨S8x8192x2048, .f32⟩
  | .hbm, ⟨67, _⟩ => ⟨S512x2048, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S512x2048, .f32⟩
  | .hbm, ⟨76, _⟩ => ⟨S512x2048, .f32⟩
  | .hbm, ⟨77, _⟩ => ⟨S512x2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S512x2048, .f32⟩
  | .hbm, ⟨82, _⟩ => ⟨S512x2048, .f32⟩
  | .hbm, ⟨83, _⟩ => ⟨S_, .f32⟩
  | .hbm, ⟨84, _⟩ => ⟨S512x2048, .f32⟩
  | .hbm, ⟨85, _⟩ => ⟨S512x2048, .f32⟩
  | .hbm, ⟨86, _⟩ => ⟨S512x2048, .f32⟩
  | .hbm, ⟨87, _⟩ => ⟨S512x2048, .f32⟩
  | .hbm, ⟨88, _⟩ => ⟨S512x2048, .f32⟩
  | .hbm, ⟨89, _⟩ => ⟨S512x2048, .f32⟩
  | .hbm, ⟨90, _⟩ => ⟨S8x8192x2048, .f32⟩
  | .hbm, ⟨91, _⟩ => ⟨S_, .f32⟩
  | .hbm, ⟨92, _⟩ => ⟨S8x8192, .f32⟩
  | .hbm, ⟨93, _⟩ => ⟨S8x8192x1, .f32⟩
  | .hbm, ⟨94, _⟩ => ⟨S_, .f32⟩
  | .hbm, ⟨95, _⟩ => ⟨S_, .f32⟩
  | .hbm, ⟨96, _⟩ => ⟨S8x8192x1, .f32⟩
  | .hbm, ⟨97, _⟩ => ⟨S8x8192x1, .f32⟩
  | .hbm, ⟨98, _⟩ => ⟨S_, .f32⟩
  | .hbm, ⟨99, _⟩ => ⟨S8x8192x1, .f32⟩
  | .hbm, ⟨100, _⟩ => ⟨S8x8192x1, .f32⟩
  | .hbm, ⟨101, _⟩ => ⟨S8x8192x2048, .f32⟩
  | .hbm, ⟨102, _⟩ => ⟨S8x8192x2048, .f32⟩
  | .hbm, ⟨103, _⟩ => ⟨S8x8192x2048, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S8x8192x2048, .f32⟩
  | .hbm, ⟨108, _⟩ => ⟨S8x8192x2048, .f32⟩
  | .hbm, ⟨109, _⟩ => ⟨S_, .f32⟩
  | .hbm, ⟨110, _⟩ => ⟨S8x8192x2048, .f32⟩
  | .hbm, ⟨111, _⟩ => ⟨S8x8192x2048, .f32⟩
  | .hbm, ⟨112, _⟩ => ⟨S8x8192x2048, .f32⟩
  | .hbm, ⟨113, _⟩ => ⟨S8x8192x2048, .f32⟩
  | .hbm, ⟨114, _⟩ => ⟨S8x8192x2048, .f32⟩
  | .hbm, ⟨115, _⟩ => ⟨S8x8192x2048, .f32⟩
  | .hbm, ⟨116, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_call3_v0 : Ref sig .tc := ⟨.hbm, 31, rfl⟩
abbrev main_call3_v1 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_7 : Ref sig .tc := ⟨.hbm, 40, rfl⟩
abbrev main_cst_8 : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_call5_v3 : Ref sig .tc := ⟨.hbm, 45, rfl⟩
abbrev main_call5_v4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call6_cst : Ref sig .tc := ⟨.hbm, 53, rfl⟩
abbrev main_call6_v0 : Ref sig .tc := ⟨.hbm, 54, rfl⟩
abbrev main_v27 : Ref sig .tc := ⟨.hbm, 55, rfl⟩
abbrev main_v28 : Ref sig .tc := ⟨.hbm, 56, rfl⟩
abbrev main_cst_9 : Ref sig .tc := ⟨.hbm, 57, rfl⟩
abbrev main_cst_10 : Ref sig .tc := ⟨.hbm, 58, rfl⟩
abbrev main_call8_v0 : Ref sig .tc := ⟨.hbm, 59, rfl⟩
abbrev main_call8_v1 : Ref sig .tc := ⟨.hbm, 60, rfl⟩
abbrev main_call8_v2 : Ref sig .tc := ⟨.hbm, 61, rfl⟩
abbrev main_call8_v3 : Ref sig .tc := ⟨.hbm, 62, rfl⟩
abbrev main_call8_v4 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_11 : Ref sig .tc := ⟨.hbm, 68, rfl⟩
abbrev main_v33 : Ref sig .tc := ⟨.hbm, 69, rfl⟩
abbrev main_cst_12 : Ref sig .tc := ⟨.hbm, 70, rfl⟩
abbrev main_v34 : Ref sig .tc := ⟨.hbm, 71, rfl⟩
abbrev main_cst_13 : Ref sig .tc := ⟨.hbm, 72, rfl⟩
abbrev main_call9_v0 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_14 : Ref sig .tc := ⟨.hbm, 78, rfl⟩
abbrev main_cst_15 : Ref sig .tc := ⟨.hbm, 79, rfl⟩
abbrev main_call11_v0 : Ref sig .tc := ⟨.hbm, 80, rfl⟩
abbrev main_call11_v1 : Ref sig .tc := ⟨.hbm, 81, rfl⟩
abbrev main_call11_v2 : Ref sig .tc := ⟨.hbm, 82, rfl⟩
abbrev main_call11_v3 : Ref sig .tc := ⟨.hbm, 83, rfl⟩
abbrev main_call11_v4 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_16 : Ref sig .tc := ⟨.hbm, 91, rfl⟩
abbrev main_v45 : Ref sig .tc := ⟨.hbm, 92, rfl⟩
abbrev main_v46 : Ref sig .tc := ⟨.hbm, 93, rfl⟩
abbrev main_cst_17 : Ref sig .tc := ⟨.hbm, 94, rfl⟩
abbrev main_call12_v0 : Ref sig .tc := ⟨.hbm, 95, rfl⟩
abbrev main_call12_v1 : Ref sig .tc := ⟨.hbm, 96, rfl⟩
abbrev main_v47 : Ref sig .tc := ⟨.hbm, 97, rfl⟩
abbrev main_cst_18 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_19 : Ref sig .tc := ⟨.hbm, 104, rfl⟩
abbrev main_cst_20 : Ref sig .tc := ⟨.hbm, 105, rfl⟩
abbrev main_call14_v0 : Ref sig .tc := ⟨.hbm, 106, rfl⟩
abbrev main_call14_v1 : Ref sig .tc := ⟨.hbm, 107, rfl⟩
abbrev main_call14_v2 : Ref sig .tc := ⟨.hbm, 108, rfl⟩
abbrev main_call14_v3 : Ref sig .tc := ⟨.hbm, 109, rfl⟩
abbrev main_call14_v4 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩

abbrev nD : Nat := 1
abbrev τ : Topo := Topo.v7x

variable {F : FTy → Type} [FloatOps F]

class Facts₀ : Prop where
  reducesTo_S2048x512_S_d0_1 : S2048x512.ReducesTo [0, 1] S_
  h_S_ : 0 < S_.numel
  bcast_S_S2048x512 : S_.BroadcastsInDim S2048x512 (![] : Fin 0 → Fin S2048x512.rank)
  reducesTo_S8x8192x512_S8x8192_d2 : S8x8192x512.ReducesTo [2] S8x8192
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x512_0_1_2 : S8x8192x1.BroadcastsInDim S8x8192x512 (![0, 1, 2] : Fin 3 → Fin S8x8192x512.rank)
  bcast_S_S8x8192x512 : S_.BroadcastsInDim S8x8192x512 (![] : Fin 0 → Fin S8x8192x512.rank)
  bcast_S_S8x8192x2048 : S_.BroadcastsInDim S8x8192x2048 (![] : Fin 0 → Fin S8x8192x2048.rank)
  reducesTo_S512x2048_S_d0_1 : S512x2048.ReducesTo [0, 1] S_
  bcast_S_S512x2048 : S_.BroadcastsInDim S512x2048 (![] : Fin 0 → Fin S512x2048.rank)
  reducesTo_S8x8192x2048_S8x8192_d2 : S8x8192x2048.ReducesTo [2] S8x8192
  bcast_S8x8192x1_S8x8192x2048_0_1_2 : S8x8192x1.BroadcastsInDim S8x8192x2048 (![0, 1, 2] : Fin 3 → Fin S8x8192x2048.rank)
  dot_S8x8192x512_S2048x512_S8x8192x2048_2_1_01_0_n_n_wf : DotDims.WF S8x8192x512 S2048x512 S8x8192x2048 [2] [1] [0, 1] [0] [] []
  dot_S8x8192x2048_S512x2048_S8x8192x512_2_1_01_0_n_n_wf : DotDims.WF S8x8192x2048 S512x2048 S8x8192x512 [2] [1] [0, 1] [0] [] []

variable [Facts₀]

def dot_S8x8192x512_S2048x512_S8x8192x2048_2_1_01_0_n_n : DotDims S8x8192x512 S2048x512 S8x8192x2048 where
  lhsContracting := [2]
  rhsContracting := [1]
  lhsNonContracting := [0, 1]
  rhsNonContracting := [0]
  lhsBatch := []
  rhsBatch := []
  wf := dot_S8x8192x512_S2048x512_S8x8192x2048_2_1_01_0_n_n_wf
def dot_S8x8192x2048_S512x2048_S8x8192x512_2_1_01_0_n_n : DotDims S8x8192x2048 S512x2048 S8x8192x512 where
  lhsContracting := [2]
  rhsContracting := [1]
  lhsNonContracting := [0, 1]
  rhsNonContracting := [0]
  lhsBatch := []
  rhsBatch := []
  wf := dot_S8x8192x2048_S512x2048_S8x8192x512_2_1_01_0_n_n_wf

class Facts : Prop extends Facts₀ where

variable [Facts]
-- ==== Proof.Reals.lean ====
/-
  The mathematics both programs compute, stated once, with no program in sight: part one, finiteness.

  A token row x is quantised to eight bits by its own largest magnitude:
    s(x) = 127 / max(eps, max_i |x_i|),      q(x)_i = clip[-128,127](round(x_i * s(x))) / s(x).
  A weight tensor w is quantised to three levels by its mean magnitude:
    sigma(w) = max(eps, (sum |w|) / 2^20),   tau(w)_j = clip[-1,1](round(w_j / sigma(w))) * sigma(w).
  One row of the two-layer network is
    h_f = sum_i q(x)_i * U_{f,i},   a_f = clip[-128,127](round(max(h_f, 0))),   out_d = sum_f q(a)_f * D_{d,f}.
  One program computes exactly this. The other writes every quantised value v' of a value v as v + (v' - v)
  (the straight-through form). On the extended reals v + (v' - v) = v' as soon as v is finite, whatever v' is;
  it can fail for an infinite v (at v = +infinity the left side is -infinity whatever v' is). So the two agree where every value that is passed straight through is finite, and
  finiteness of the inputs is inherited by all of them: the clipped values are bounded, every scale is a positive
  real, hence every quantised entry, every dot product of them and the rectified hidden row are real numbers.
  This file has the notion of a real extended real, its closure properties, the cancellation law, and the
  constants the programs spell.
-/
import Idealize.ShloMosaic.PureOps.Ideal
import Idealize.ShloMosaic.PureOps.Ideal.Laws

noncomputable section

namespace Cert.Quant

open Idealize.ShloMosaic

/-! ## Real (finite) extended reals -/

/-- The extended real is a real number (neither infinity). -/
def IsR (a : EReal) : Prop := ∃ r : ℝ, a = (r : EReal)

theorem IsR.coe (r : ℝ) : IsR (r : EReal) := ⟨r, rfl⟩

theorem IsR.of_ne {a : EReal} (h1 : a ≠ ⊤) (h2 : a ≠ ⊥) : IsR a := ⟨a.toReal, (EReal.coe_toReal h1 h2).symm⟩

theorem IsR.ne_top {a : EReal} (h : IsR a) : a ≠ ⊤ := by obtain ⟨r, rfl⟩ := h; exact EReal.coe_ne_top r
theorem IsR.ne_bot {a : EReal} (h : IsR a) : a ≠ ⊥ := by obtain ⟨r, rfl⟩ := h; exact EReal.coe_ne_bot r
theorem IsR.lt_top {a : EReal} (h : IsR a) : a < ⊤ := lt_top_iff_ne_top.2 h.ne_top

theorem IsR.add {a b : EReal} (ha : IsR a) (hb : IsR b) : IsR (a + b) := by
  obtain ⟨r, rfl⟩ := ha; obtain ⟨s, rfl⟩ := hb; exact ⟨r + s, (EReal.coe_add r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.neg {a : EReal} (ha : IsR a) : IsR (-a) := by
  obtain ⟨r, rfl⟩ := ha; exact ⟨-r, (EReal.coe_neg r).symm⟩
theorem IsR.max {a b : EReal} (ha : IsR a) (hb : IsR b) : IsR (max a b) := by
  rcases max_choice a b with h | h <;> rw [h] <;> assumption
theorem IsR.min {a b : EReal} (ha : IsR a) (hb : IsR b) : IsR (min a b) := by
  rcases min_choice a b with h | h <;> rw [h] <;> assumption
theorem IsR.zero : IsR (0 : EReal) := ⟨0, rfl⟩

theorem IsR.sum {ι : Type*} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih

/-- The straight-through form gives back the quantised value when the value passed through is finite. -/
theorem ste_cancel {a : EReal} (ha : IsR a) (q : EReal) : a + (q - a) = q := by
  obtain ⟨r, rfl⟩ := ha
  induction q using EReal.rec with
  | bot => simp
  | coe q => rw [← EReal.coe_sub, ← EReal.coe_add]; congr 1; ring
  | top => simp

/-- Anything squeezed between two reals is real. -/
theorem IsR.of_between {a : EReal} {lo hi : ℝ} (h1 : (lo : EReal) ≤ a) (h2 : a ≤ (hi : EReal)) : IsR a :=
  IsR.of_ne (fun h => by rw [h] at h2; exact absurd h2 (not_le.2 (EReal.coe_lt_top hi)))
    (fun h => by rw [h] at h1; exact absurd h1 (not_le.2 (EReal.bot_lt_coe lo)))

/-- A quotient by a nonzero real is the product with its reciprocal, so real over real is real. -/
theorem IsR.div_real {a : EReal} (ha : IsR a) {s : ℝ} (hs : s ≠ 0) : IsR (Ideal.div a (s : EReal)) := by
  rw [Ideal.div_coe hs]; exact ha.mul (IsR.coe _)

/-- Rounding to the nearest integer keeps a real real. -/
theorem IsR.round {a : EReal} (ha : IsR a) : IsR (Ideal.liftRound Ideal.roundHalfEven a) := by
  obtain ⟨r, rfl⟩ := ha; exact ⟨_, Ideal.liftRound_coe r Ideal.roundHalfEven⟩

/-! ## The constants -/

abbrev cEps : EReal := Ideal.ofBits .f32 0x3727C5AC#32
abbrev c127 : EReal := Ideal.ofBits .f32 0x42FE0000#32
abbrev cm128 : EReal := Ideal.ofBits .f32 0xC3000000#32
abbrev cNegInf : EReal := Ideal.ofBits .f32 0xFF800000#32
abbrev cZero : EReal := Ideal.ofBits .f32 0x00000000#32
abbrev cOne : EReal := Ideal.ofBits .f32 0x3F800000#32
abbrev cmOne : EReal := Ideal.ofBits .f32 0xBF800000#32
abbrev cCount : EReal := Ideal.ofBits .f32 0x49800000#32

theorem c127_eq : c127 = ((127 : ℝ) : EReal) := by
  simp [c127, Ideal.ofBits, Ideal.ieee, -EReal.coe_mul]; norm_num
theorem cm128_eq : cm128 = ((-128 : ℝ) : EReal) := by
  simp [cm128, Ideal.ofBits, Ideal.ieee, -EReal.coe_mul]; norm_num
theorem cOne_eq : cOne = ((1 : ℝ) : EReal) := by
  simp [cOne, Ideal.ofBits, Ideal.ieee, -EReal.coe_mul]; norm_num
theorem cmOne_eq : cmOne = ((-1 : ℝ) : EReal) := by
  simp [cmOne, Ideal.ofBits, Ideal.ieee, -EReal.coe_mul]; norm_num
theorem cCount_eq : cCount = ((1048576 : ℝ) : EReal) := by
  simp [cCount, Ideal.ofBits, Ideal.ieee, -EReal.coe_mul]; norm_num
theorem cZero_eq : cZero = 0 := by simp [cZero, Ideal.ofBits, Ideal.ieee]
theorem cNegInf_eq : cNegInf = ⊥ := by simp [cNegInf, Ideal.ofBits, Ideal.ieee]
/-- eps is a positive real (its exact value, 10995116 / 2^40, is never needed). -/
theorem cEps_pos : ∃ e : ℝ, 0 < e ∧ cEps = (e : EReal) := by
  refine ⟨10995116 * (2 : ℝ) ^ (-40 : ℤ), by positivity, ?_⟩
  simp [cEps, Ideal.ofBits, Ideal.ieee, -EReal.coe_mul]

end Cert.Quant

end
-- ==== Proof.Row.lean ====
/-
  The mathematics both programs compute, part two: the row function, in its plain form and in its
  straight-through form, and the theorem that the two agree on finite data.

  rowQ v    : a row v quantised to eight bits by its own largest magnitude, entry by entry.
  tQuant w  : a weight tensor quantised to three levels by its mean magnitude, entry by entry.
  outRow    : one output row of the network from one input row and the two quantised weight matrices.
  outRowSte : the same with every quantised value v' of v written v + (v' - v).
-/
import proofs.«155871_j83803401879881_1_alg».proof.Proof.Reals

noncomputable section

namespace Cert.Quant

open Idealize.ShloMosaic

/-! ## Clipping and rounding -/

/-- Clipping to [-128, 127]. -/
def clip8 (a : EReal) : EReal := min c127 (max cm128 a)
/-- Clipping to [-1, 1]. -/
def clip1 (a : EReal) : EReal := min cOne (max cmOne a)
/-- Rounding to the nearest integer, ties to even; the infinities fixed. -/
def rnd (a : EReal) : EReal := Ideal.liftRound Ideal.roundHalfEven a

/-- A clipped value is real, whatever was clipped. -/
theorem clip8_isR (a : EReal) : IsR (clip8 a) := by
  unfold clip8; rw [c127_eq, cm128_eq]
  refine IsR.of_between (lo := -128) (hi := 127) (le_min ?_ (le_max_left _ _)) (min_le_left _ _)
  exact EReal.coe_le_coe_iff.2 (by norm_num)

theorem clip1_isR (a : EReal) : IsR (clip1 a) := by
  unfold clip1; rw [cOne_eq, cmOne_eq]
  refine IsR.of_between (lo := -1) (hi := 1) (le_min ?_ (le_max_left _ _)) (min_le_left _ _)
  exact EReal.coe_le_coe_iff.2 (by norm_num)

/-- The larger of eps and anything below +infinity is a positive real. -/
theorem max_eps_pos {A : EReal} (hA : A < ⊤) : ∃ M : ℝ, 0 < M ∧ max cEps A = (M : EReal) := by
  obtain ⟨e, he, hE⟩ := cEps_pos
  have h1 : max cEps A ≠ ⊤ := ne_of_lt (max_lt (by rw [hE]; exact EReal.coe_lt_top e) hA)
  have h2 : max cEps A ≠ ⊥ := fun h => by
    have : cEps ≤ ⊥ := h ▸ le_max_left cEps A
    rw [hE] at this; exact absurd this (not_le.2 (EReal.bot_lt_coe e))
  obtain ⟨M, hM⟩ := IsR.of_ne h1 h2
  refine ⟨M, ?_, hM⟩
  have : (e : EReal) ≤ (M : EReal) := by rw [← hM, ← hE]; exact le_max_left _ _
  exact lt_of_lt_of_le he (EReal.coe_le_coe_iff.1 this)

/-! ## A row quantised by its largest magnitude -/

/-- The largest magnitude of a row (from minus infinity, so that of an empty row is minus infinity). -/
def rowAmax {n : ℕ} (v : Fin n → EReal) : EReal :=
  (Finset.univ : Finset (Fin n)).fold max cNegInf (fun k => max (v k) (-(v k)))

/-- The row's scale: 127 over its largest magnitude, the latter kept at least eps. -/
def rowScale {n : ℕ} (v : Fin n → EReal) : EReal := Ideal.div c127 (max cEps (rowAmax v))

/-- The row quantised: scaled, rounded, clipped to eight bits, scaled back. -/
def rowQ {n : ℕ} (v : Fin n → EReal) (i : Fin n) : EReal :=
  Ideal.div (clip8 (rnd (v i * rowScale v))) (rowScale v)

theorem rowAmax_lt_top {n : ℕ} {v : Fin n → EReal} (hv : ∀ i, IsR (v i)) : rowAmax v < ⊤ := by
  unfold rowAmax
  rw [Finset.fold_max_lt]
  exact ⟨by rw [cNegInf_eq]; exact bot_lt_top, fun k _ => ((hv k).max (hv k).neg).lt_top⟩

/-- A finite row has a positive real scale. -/
theorem rowScale_pos {n : ℕ} {v : Fin n → EReal} (hv : ∀ i, IsR (v i)) : ∃ s : ℝ, 0 < s ∧ rowScale v = (s : EReal) := by
  obtain ⟨M, hM, hE⟩ := max_eps_pos (rowAmax_lt_top hv)
  refine ⟨127 * (1 / M), by positivity, ?_⟩
  unfold rowScale
  rw [hE, Ideal.div_coe hM.ne', c127_eq, ← EReal.coe_mul]

/-- So every entry of its quantisation is real. -/
theorem rowQ_isR {n : ℕ} {v : Fin n → EReal} (hv : ∀ i, IsR (v i)) (i : Fin n) : IsR (rowQ v i) := by
  obtain ⟨s, hs, hS⟩ := rowScale_pos hv
  unfold rowQ; rw [hS]
  exact (clip8_isR _).div_real hs.ne'

/-! ## A weight tensor quantised by its mean magnitude -/

/-- The tensor's scale: its mean magnitude (the sum over 2^20 entries, from zero), kept at least eps. -/
def tScale {ι : Type} [Fintype ι] (w : ι → EReal) : EReal :=
  max cEps (Ideal.div (cZero + ∑ j, max (w j) (-(w j))) cCount)

/-- The tensor quantised to the three levels -scale, 0, scale. -/
def tQuant {ι : Type} [Fintype ι] (w : ι → EReal) (j : ι) : EReal :=
  clip1 (rnd (Ideal.div (w j) (tScale w))) * tScale w

theorem tScale_pos {ι : Type} [Fintype ι] {w : ι → EReal} (hw : ∀ j, IsR (w j)) : ∃ s : ℝ, 0 < s ∧ tScale w = (s : EReal) := by
  have hs : IsR (Ideal.div (cZero + ∑ j, max (w j) (-(w j))) cCount) := by
    rw [cCount_eq, cZero_eq]
    exact (IsR.zero.add (IsR.sum _ _ fun j => (hw j).max (hw j).neg)).div_real (by norm_num)
  exact max_eps_pos hs.lt_top

/-- A finite tensor's quantisation is real. -/
theorem tQuant_isR {ι : Type} [Fintype ι] {w : ι → EReal} (hw : ∀ j, IsR (w j)) (j : ι) : IsR (tQuant w j) := by
  obtain ⟨s, _, hS⟩ := tScale_pos hw
  unfold tQuant; rw [hS]
  exact (clip1_isR _).mul (IsR.coe s)

/-! ## One row of the network -/

/-- The hidden activation: rectified, rounded, clipped to eight bits. -/
def act (h : EReal) : EReal := clip8 (rnd (max h cZero))

/-- One output row from the input row x and the two (already quantised) weight matrices. -/
def outRow {n k : ℕ} (x : Fin n → EReal) (U : Fin k → Fin n → EReal) (D : Fin n → Fin k → EReal) (d : Fin n) : EReal :=
  ∑ f, rowQ (fun f' => act (∑ i, rowQ x i * U f' i)) f * D d f

/-- The straight-through form v + (v' - v) of a quantised value v' of v. -/
def ste (a q : EReal) : EReal := a + (q - a)

/-- The same row with every quantised value passed straight through: the input row, the two weight matrices
    (u, dd before quantisation; U, D after), the rounded hidden row and its quantisation. -/
def outRowSte {n k : ℕ} (x : Fin n → EReal) (u U : Fin k → Fin n → EReal) (dd D : Fin n → Fin k → EReal) (d : Fin n) : EReal :=
  ∑ f, (fun (he : Fin k → EReal) => ste (he f) (rowQ he f))
        (fun f' => (fun r => ste r (clip8 (rnd r))) (max (∑ i, ste (x i) (rowQ x i) * ste (u f' i) (U f' i)) cZero))
      * ste (dd d f) (D d f)

/-- On a finite input row, finite weights and finite quantised first-layer weights the two forms agree: each
    value passed straight through is finite — the input and the weights by hypothesis, the rectified hidden value
    as a finite sum of products of reals, the rounded hidden value because it is clipped — so each
    v + (v' - v) is v'. -/
theorem outRowSte_eq {n k : ℕ} {x : Fin n → EReal} {u U : Fin k → Fin n → EReal} {dd D : Fin n → Fin k → EReal}
    (hx : ∀ i, IsR (x i)) (hu : ∀ f i, IsR (u f i)) (hU : ∀ f i, IsR (U f i)) (hdd : ∀ d f, IsR (dd d f)) (d : Fin n) :
    outRowSte x u U dd D d = outRow x U D d := by
  have e1 : ∀ i, ste (x i) (rowQ x i) = rowQ x i := fun i => ste_cancel (hx i) _
  have e2 : ∀ f i, ste (u f i) (U f i) = U f i := fun f i => ste_cancel (hu f i) _
  have e3 : ∀ f', ste (max (∑ i, rowQ x i * U f' i) cZero) (clip8 (rnd (max (∑ i, rowQ x i * U f' i) cZero)))
      = act (∑ i, rowQ x i * U f' i) := fun f' =>
    ste_cancel ((IsR.sum _ _ fun i => (rowQ_isR hx i).mul (hU f' i)).max (by rw [cZero_eq]; exact IsR.zero)) _
  have e4 : ∀ f, ste (act (∑ i, rowQ x i * U f i)) (rowQ (fun f' => act (∑ i, rowQ x i * U f' i)) f)
      = rowQ (fun f' => act (∑ i, rowQ x i * U f' i)) f := fun f => ste_cancel (clip8_isR _) _
  have e5 : ∀ f, ste (dd d f) (D d f) = D d f := fun f => ste_cancel (hdd d f) _
  unfold outRowSte outRow
  simp only [e1, e2, e3, e4, e5]

end Cert.Quant

end
-- ==== Proof.Cols.lean ====
/-
  Reading a row statistic of a matrix at an index.

  A per-row quantity of an [a, b] matrix is computed as a vector [a], viewed as a column [a, 1] and
  spread back over the b columns. Here: the column view read at (p, 0) is the vector at p; the spread
  read at (p, c) is the column at (p, 0); the index of the reduced axis put back into row p is (p, k);
  and the row-wise maximum of magnitudes, read at row p, is the largest magnitude of that row.
-/
import Idealize.ShloMosaic.Lib.ValueLayout
import Idealize.ShloMosaic.PureOps.Ideal.Laws
import proofs.«155871_j83803401879881_1_alg».proof.Proof.Row

noncomputable section

namespace Cert.Quant

open Idealize.ShloMosaic Idealize.ShloMosaic.ValueIdx

variable {α : Type}

/-- A vector [a] viewed as a column [a, 1] reads, at (p, z), the vector at p. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column [a, 1] spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row p of an [a, b] matrix with column k put back is the index (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over each row of the magnitudes of an [a, b] matrix, from minus infinity, read at row p: the
    largest magnitude of that row. -/
theorem rowmax_abs_apply {a b : ℕ} (v : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ) (p : Fin a) :
    multiReduction .maximumf [1] (⟨1, ![a]⟩ : Shape) (absf v) 0xFF800000#32 h hφ hacc (ix1 p)
      = rowAmax (fun k : Fin b => v (ix2 p k)) := by
  refine (Ideal.multiReduction_maximumf_single (absf v) _ h hφ hacc (ix1 p)).trans ?_
  have hf : (absf v ∘ h.lift (ix1 p)) = fun k : Fin b => max (v (ix2 p k)) (-(v (ix2 p k))) := funext fun k => by
    show FloatOps.absf (v (h.lift (ix1 p) k)) = _
    rw [lift_row h p k]; rfl
  unfold rowAmax
  exact congrArg (fun f => Finset.fold max (Ideal.ofBits .f32 0xFF800000#32) f (Finset.univ : Finset (Fin b))) hf

end Cert.Quant

end
-- ==== Proof.KBody.lean ====
/-
  What the kernel's body computes, read at an index.

  The body receives a block x0 of 512 token rows, the quantised first-layer weights x1 and the quantised
  second-layer weights x2. It quantises each row by its largest magnitude, multiplies by the first layer,
  rectifies, rounds and clips, quantises each resulting row again and multiplies by the second layer. Read at
  row p and column d the stored value is the row function outRow of row p of x0.

  The row quantiser occurs twice in the body; it is named once here (kq), as the body spells it: the row's
  maximal magnitude as a column, 127 over it, the matrix times that column spread out, rounded, clipped, and
  divided by the column again.
-/
import proofs.«155871_j83803401879881_1_alg».proof.Proof.Gen.KernelIdeal.Skeleton
import proofs.«155871_j83803401879881_1_alg».proof.Proof.Cols
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen Cert.Quant

/-! ## The row quantiser as the body spells it -/

/-- The scale column of an [a, b] matrix: 127 over each row's largest magnitude (at least eps). -/
def kscale {a b : ℕ} (v : FVec Ideal ⟨2, ![a, b]⟩ .f32) (hred : (⟨2, ![a, b]⟩ : Shape).Reduces [1] (⟨1, ![a]⟩ : Shape))
    (hsc : (⟨1, ![a]⟩ : Shape).ShapeCasts ⟨2, ![a, 1]⟩) : FVec Ideal ⟨2, ![a, 1]⟩ .f32 :=
  divf (broadcast ⟨2, ![a, 1]⟩ (Scalar.ofBits (F := Ideal) .f32 0x42FE0000#32))
    (maximumf (broadcast ⟨2, ![a, 1]⟩ (Scalar.ofBits (F := Ideal) .f32 0x3727C5AC#32))
      (shapeCast ⟨2, ![a, 1]⟩ (multiReduction .maximumf [1] (⟨1, ![a]⟩ : Shape) (absf v) 0xFF800000#32 hred (.inl rfl) rfl) hsc))

/-- The matrix quantised row by row. -/
def kq {a b : ℕ} (v : FVec Ideal ⟨2, ![a, b]⟩ .f32) (hred : (⟨2, ![a, b]⟩ : Shape).Reduces [1] (⟨1, ![a]⟩ : Shape))
    (hsc : (⟨1, ![a]⟩ : Shape).ShapeCasts ⟨2, ![a, 1]⟩) (hbc : (⟨2, ![a, 1]⟩ : Shape).Broadcasts ⟨2, ![a, b]⟩) : FVec Ideal ⟨2, ![a, b]⟩ .f32 :=
  divf (minimumf (broadcast ⟨2, ![a, b]⟩ (Scalar.ofBits (F := Ideal) .f32 0x42FE0000#32))
      (maximumf (broadcast ⟨2, ![a, b]⟩ (Scalar.ofBits (F := Ideal) .f32 0xC3000000#32))
        (roundeven (mulf v (broadcastTo ⟨2, ![a, b]⟩ (kscale v hred hsc) hbc)))))
    (broadcastTo ⟨2, ![a, b]⟩ (kscale v hred hsc) hbc)

/-- The scale column at row p is the row's scale. -/
theorem kscale_apply {a b : ℕ} (v : FVec Ideal ⟨2, ![a, b]⟩ .f32) (hred : (⟨2, ![a, b]⟩ : Shape).Reduces [1] (⟨1, ![a]⟩ : Shape))
    (hsc : (⟨1, ![a]⟩ : Shape).ShapeCasts ⟨2, ![a, 1]⟩) (p : Fin a) :
    kscale v hred hsc (ix2 p (0 : Fin 1)) = rowScale (fun k : Fin b => v (ix2 p k)) := by
  unfold kscale rowScale
  show Ideal.div c127 (max cEps (shapeCast ⟨2, ![a, 1]⟩ _ hsc (ix2 p (0 : Fin 1)))) = _
  rw [shapeCast_a_a1_apply]
  exact congrArg (fun A => Ideal.div c127 (max cEps A)) (rowmax_abs_apply v hred _ _ p)

/-- The quantised matrix at (p, i) is the quantised row p at i. -/
theorem kq_apply {a b : ℕ} (v : FVec Ideal ⟨2, ![a, b]⟩ .f32) (hred : (⟨2, ![a, b]⟩ : Shape).Reduces [1] (⟨1, ![a]⟩ : Shape))
    (hsc : (⟨1, ![a]⟩ : Shape).ShapeCasts ⟨2, ![a, 1]⟩) (hbc : (⟨2, ![a, 1]⟩ : Shape).Broadcasts ⟨2, ![a, b]⟩) (p : Fin a) (i : Fin b) :
    kq v hred hsc hbc (ix2 p i) = rowQ (fun k : Fin b => v (ix2 p k)) i := by
  unfold kq rowQ
  show Ideal.div (min c127 (max cm128 (Ideal.liftRound Ideal.roundHalfEven
      (v (ix2 p i) * broadcastTo ⟨2, ![a, b]⟩ (kscale v hred hsc) hbc (ix2 p i)))))
    (broadcastTo ⟨2, ![a, b]⟩ (kscale v hred hsc) hbc (ix2 p i)) = _
  rw [broadcastTo_a1_ab_apply, kscale_apply]
  rfl

/-! ## The two matrix products -/

theorem mm1_l0 (j : S512x2048.Idx) (q : dot_S512x512_S2048x512_S512x2048_1_1_0_0_n_n.contr.Idx) : (dot_S512x512_S2048x512_S512x2048_1_1_0_0_n_n.lhsIdx j q 0).val = (j 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem mm1_l1 (j : S512x2048.Idx) (q : dot_S512x512_S2048x512_S512x2048_1_1_0_0_n_n.contr.Idx) : (dot_S512x512_S2048x512_S512x2048_1_1_0_0_n_n.lhsIdx j q 1).val = (q ⟨0, by decide⟩).val :=
  dot_S512x512_S2048x512_S512x2048_1_1_0_0_n_n.lhsIdx_val_of_single rfl j q
theorem mm1_r0 (j : S512x2048.Idx) (q : dot_S512x512_S2048x512_S512x2048_1_1_0_0_n_n.contr.Idx) : (dot_S512x512_S2048x512_S512x2048_1_1_0_0_n_n.rhsIdx j q 0).val = (j 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem mm1_r1 (j : S512x2048.Idx) (q : dot_S512x512_S2048x512_S512x2048_1_1_0_0_n_n.contr.Idx) : (dot_S512x512_S2048x512_S512x2048_1_1_0_0_n_n.rhsIdx j q 1).val = (q ⟨0, by decide⟩).val :=
  dot_S512x512_S2048x512_S512x2048_1_1_0_0_n_n.rhsIdx_val_of_single rfl j q

/-- The first product, into zero: row p of the left operand against row f of the right one. -/
theorem mm1_apply (l : FVec Ideal S512x512 .bf16) (r : FVec Ideal S2048x512 .bf16) (p : Fin 512) (f : Fin 2048) :
    matmul dot_S512x512_S2048x512_S512x2048_1_1_0_0_n_n none l r (constant S512x2048 .f32 0x00000000#32) (ix2 p f)
      = ∑ k : Fin 512, l (ix2 p k) * r (ix2 f k) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p f) ((contrEquiv1 dot_S512x512_S2048x512_S512x2048_1_1_0_0_n_n 512 rfl rfl).symm k) = ix2 p k := funext fun a => Fin.ext (by
    match a with
    | ⟨0, _⟩ => exact mm1_l0 _ _
    | ⟨1, _⟩ => exact (mm1_l1 _ _).trans hk)
  have er : dot_S512x512_S2048x512_S512x2048_1_1_0_0_n_n.rhsIdx (ix2 p f) ((contrEquiv1 dot_S512x512_S2048x512_S512x2048_1_1_0_0_n_n 512 rfl rfl).symm k) = ix2 f k := funext fun a => Fin.ext (by
    match a with
    | ⟨0, _⟩ => exact mm1_r0 _ _
    | ⟨1, _⟩ => exact (mm1_r1 _ _).trans hk)
  rw [el, er]

theorem mm2_l0 (j : S512x512.Idx) (q : dot_S512x2048_S512x2048_S512x512_1_1_0_0_n_n.contr.Idx) : (dot_S512x2048_S512x2048_S512x512_1_1_0_0_n_n.lhsIdx j q 0).val = (j 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem mm2_l1 (j : S512x512.Idx) (q : dot_S512x2048_S512x2048_S512x512_1_1_0_0_n_n.contr.Idx) : (dot_S512x2048_S512x2048_S512x512_1_1_0_0_n_n.lhsIdx j q 1).val = (q ⟨0, by decide⟩).val :=
  dot_S512x2048_S512x2048_S512x512_1_1_0_0_n_n.lhsIdx_val_of_single rfl j q
theorem mm2_r0 (j : S512x512.Idx) (q : dot_S512x2048_S512x2048_S512x512_1_1_0_0_n_n.contr.Idx) : (dot_S512x2048_S512x2048_S512x512_1_1_0_0_n_n.rhsIdx j q 0).val = (j 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem mm2_r1 (j : S512x512.Idx) (q : dot_S512x2048_S512x2048_S512x512_1_1_0_0_n_n.contr.Idx) : (dot_S512x2048_S512x2048_S512x512_1_1_0_0_n_n.rhsIdx j q 1).val = (q ⟨0, by decide⟩).val :=
  dot_S512x2048_S512x2048_S512x512_1_1_0_0_n_n.rhsIdx_val_of_single rfl j q

/-- The second product, into zero: row p of the left operand against row d of the right one. -/
theorem mm2_apply (l : FVec Ideal S512x2048 .bf16) (r : FVec Ideal S512x2048 .bf16) (p : Fin 512) (f : Fin 512) :
    matmul dot_S512x2048_S512x2048_S512x512_1_1_0_0_n_n none l r (constant S512x512 .f32 0x00000000#32) (ix2 p f)
      = ∑ k : Fin 2048, l (ix2 p k) * r (ix2 f k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p f) ((contrEquiv1 dot_S512x2048_S512x2048_S512x512_1_1_0_0_n_n 2048 rfl rfl).symm k) = ix2 p k := funext fun a => Fin.ext (by
    match a with
    | ⟨0, _⟩ => exact mm2_l0 _ _
    | ⟨1, _⟩ => exact (mm2_l1 _ _).trans hk)
  have er : dot_S512x2048_S512x2048_S512x512_1_1_0_0_n_n.rhsIdx (ix2 p f) ((contrEquiv1 dot_S512x2048_S512x2048_S512x512_1_1_0_0_n_n 2048 rfl rfl).symm k) = ix2 f k := funext fun a => Fin.ext (by
    match a with
    | ⟨0, _⟩ => exact mm2_r0 _ _
    | ⟨1, _⟩ => exact (mm2_r1 _ _).trans hk)
  rw [el, er]

/-! ## The payloads at an index -/

/-- The second scale column is the row scale of the clipped hidden activations. -/
theorem scale2_eq (x0 : FVec Ideal S512x512 .f32) (x1 : FVec Ideal S2048x512 .bf16) :
    k0_pay3 (F := Ideal) x0 x1 = kscale (k0_pay2 x0 x1) reduces_S512x2048_S512 shapeCasts_S512_S512x1 := rfl

/-- The scaled, rounded and lower-clipped hidden activations, over that column. -/
theorem scaled2_eq (x0 : FVec Ideal S512x512 .f32) (x1 : FVec Ideal S2048x512 .bf16) :
    k0_pay4 (F := Ideal) x0 x1
      = maximumf (broadcast S512x2048 (Scalar.ofBits (F := Ideal) .f32 0xC3000000#32))
          (roundeven (mulf (k0_pay2 x0 x1) (broadcastTo S512x2048 (k0_pay3 x0 x1) broadcasts_S512x1_S512x2048))) := rfl

set_option maxRecDepth 65536 in
/-- The clipped hidden activation at (p, f): the quantised row p against row f of the first-layer weights,
    rectified, rounded and clipped. -/
theorem hidden_apply (v0 : FVec Ideal S512x512 .f32) (v19 : FVec Ideal S2048x512 .bf16) (p : Fin 512) (f : Fin 2048) :
    k0_pay2 (F := Ideal) v0 v19 (ix2 p f)
      = act (∑ i : Fin 512, rowQ (fun k : Fin 512 => v0 (ix2 p k)) i * v19 (ix2 f i)) := by
  unfold k0_pay2
  generalize hM : matmul (F := Ideal) dot_S512x512_S2048x512_S512x2048_1_1_0_0_n_n none _ _ _ = M
  show act (M (ix2 p f)) = _
  refine congrArg act ?_
  rw [← hM, mm1_apply]
  refine Finset.sum_congr rfl fun i _ => ?_
  show kq (shapeCast S512x512 v0 shapeCasts_S512x512_S512x512) reduces_S512x512_S512 shapeCasts_S512_S512x1 broadcasts_S512x1_S512x512 (ix2 p i)
      * shapeCast S2048x512 v19 shapeCasts_S2048x512_S2048x512 (ix2 f i) = _
  rw [kq_apply, shapeCast_self, shapeCast_self]

set_option maxRecDepth 65536 in
/-- The stored value at (p, d): the network's row function of row p of the input block. -/
theorem stored_apply (x0 : FVec Ideal S512x512 .f32) (x1 : FVec Ideal S2048x512 .bf16) (x2 : FVec Ideal S512x2048 .bf16) (p d : Fin 512) :
    k0_pay1 (F := Ideal) (k0_pay3 x0 x1) (Scalar.ofBits .f32 0x42FE0000#32) (k0_pay4 x0 x1) x2 (ix2 p d)
      = outRow (fun i : Fin 512 => x0 (ix2 p i)) (fun (f : Fin 2048) (i : Fin 512) => x1 (ix2 f i))
          (fun (d' : Fin 512) (f : Fin 2048) => x2 (ix2 d' f)) d := by
  rw [scaled2_eq, scale2_eq]
  unfold k0_pay1
  rw [mm2_apply]
  unfold outRow
  refine Finset.sum_congr rfl fun f _ => ?_
  show kq (k0_pay2 x0 x1) reduces_S512x2048_S512 shapeCasts_S512_S512x1 broadcasts_S512x1_S512x2048 (ix2 p f)
      * shapeCast S512x2048 x2 shapeCasts_S512x2048_S512x2048 (ix2 d f) = _
  rw [kq_apply, shapeCast_self]
  simp only [hidden_apply]

end Cert.KernelIdeal.Body

end
-- ==== Proof.KArray.lean ====
/-
  From the blocks the grid points write to the whole output array, and through the reshape after the region.

  The grid has 128 points. Point t reads rows 512 t .. 512 t + 511 of the token matrix (65536 x 512), reads the two
  quantised weight matrices whole, and writes rows 512 t .. 512 t + 511 of the output. The body is row-wise, so the
  block a point writes is the restriction to its rows of one function of the whole arrays (regionOut); the 128 row
  blocks tile the output, so the output array ends at that function. The program then views the 65536 x 512 output
  as 8 x 8192 x 512.
-/
import proofs.«155871_j83803401879881_1_alg».proof.Proof.Gen.KernelIdeal.Frame
import proofs.«155871_j83803401879881_1_alg».proof.Proof.KBody
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.Quant Cert.KernelIdeal.Body
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The region's output as one function of the token matrix X and the two quantised weight matrices: entry
    (r, d) is the network's row function of row r of X, at d. -/
def regionOut (X : S65536x512.Idx → EReal) (U : S2048x512.Idx → EReal) (D : S512x2048.Idx → EReal) : S65536x512.Idx → EReal :=
  fun j => outRow (fun i : Fin 512 => X (ix2 (⟨(j 0).val, (j 0).isLt⟩ : Fin 65536) i)) (fun (f : Fin 2048) (i : Fin 512) => U (ix2 f i))
    (fun (d : Fin 512) (f : Fin 2048) => D (ix2 d f)) (⟨(j 1).val, (j 1).isLt⟩ : Fin 512)

/-- What one point stores, over plain variables: if the point's input block x0 is rows 512 t .. of X and its
    weight blocks are U and D whole, then its stored block at y is regionOut at the array index under y. -/
theorem point_eq (x0 : FVec Ideal S512x512 .f32) (x1 : FVec Ideal S2048x512 .bf16) (x2 : FVec Ideal S512x2048 .bf16)
    (X : S65536x512.Idx → EReal) (U : S2048x512.Idx → EReal) (D : S512x2048.Idx → EReal) (t : ℕ)
    (h0 : ∀ (y : S512x512.Idx) (j : S65536x512.Idx), (j 0).val = t * 512 + (y 0).val → (j 1).val = (y 1).val → x0 y = X j)
    (h1 : ∀ y : S2048x512.Idx, x1 y = U y) (h2 : ∀ y : S512x2048.Idx, x2 y = D y)
    (y : S512x512.Idx) (j : S65536x512.Idx) (hj0 : (j 0).val = t * 512 + (y 0).val) (hj1 : (j 1).val = (y 1).val) :
    k0_pay1 (F := Ideal) (k0_pay3 x0 x1) (Scalar.ofBits .f32 0x42FE0000#32) (k0_pay4 x0 x1) x2 y = regionOut X U D j := by
  obtain ⟨p, d, rfl⟩ : ∃ (p : Fin 512) (d : Fin 512), y = ix2 p d := ⟨y 0, y 1, eq_ix2 y⟩
  rw [stored_apply]
  unfold regionOut
  have hd : (⟨(j 1).val, (j 1).isLt⟩ : Fin 512) = d := Fin.ext hj1
  have hx : (fun i : Fin 512 => x0 (ix2 p i)) = fun i : Fin 512 => X (ix2 (⟨(j 0).val, (j 0).isLt⟩ : Fin 65536) i) :=
    funext fun i => h0 (ix2 p i) (ix2 (⟨(j 0).val, (j 0).isLt⟩ : Fin 65536) i) hj0 rfl
  have hu : (fun (f : Fin 2048) (i : Fin 512) => x1 (ix2 f i)) = fun (f : Fin 2048) (i : Fin 512) => U (ix2 f i) :=
    funext fun f => funext fun i => h1 _
  have hdn : (fun (d' : Fin 512) (f : Fin 2048) => x2 (ix2 d' f)) = fun (d' : Fin 512) (f : Fin 2048) => D (ix2 d' f) :=
    funext fun d' => funext fun f => h2 _
  rw [hx, hu, hdn, hd]

/-- The printed index maps, decided over the grid: the token and output windows are at block row t, the weight
    windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The token block of point t at y is the token matrix at (512 t + y0, y1). -/
theorem blk0_read (c : Dev nD) (t : Fin cfg0.N) (y : S512x512.Idx) (j : S65536x512.Idx)
    (h0 : (j 0).val = t.val * 512 + (y 0).val) (h1 : (j 1).val = (y 1).val) :
    iblk m c 0 t y = V m c main_v22 j := by
  show V m c main_v22 (((cfg0.win 0).blk t).view.emb y) = V m c main_v22 j
  obtain ⟨e0, e1, -⟩ := idx_facts t
  have he : ((cfg0.win 0).blk t).view.emb y = j := by
    funext a; apply Fin.ext
    match a with
    | ⟨0, _⟩ => show win0_0.index t (0 : Fin 2) * 512 + 1 * (y 0).val = (j 0).val; omega
    | ⟨1, _⟩ => show win0_0.index t (1 : Fin 2) * 512 + 1 * (y 1).val = (j 1).val; omega
  rw [he]

/-- The first-layer weight block of any point is the whole quantised matrix. -/
theorem blk1_read (c : Dev nD) (t : Fin cfg0.N) (y : S2048x512.Idx) : iblk m c 1 t y = V m c main_v10 y := by
  show V m c main_v10 (((cfg0.win 1).blk t).view.emb y) = V m c main_v10 y
  obtain ⟨-, -, e2, e3, -⟩ := idx_facts t
  have he : ((cfg0.win 1).blk t).view.emb y = y := by
    funext a; apply Fin.ext
    match a with
    | ⟨0, _⟩ => show win0_1.index t (0 : Fin 2) * 2048 + 1 * (y 0).val = (y 0).val; omega
    | ⟨1, _⟩ => show win0_1.index t (1 : Fin 2) * 512 + 1 * (y 1).val = (y 1).val; omega
  rw [he]

/-- The second-layer weight block of any point is the whole quantised matrix. -/
theorem blk2_read (c : Dev nD) (t : Fin cfg0.N) (y : S512x2048.Idx) : iblk m c 2 t y = V m c main_v21 y := by
  show V m c main_v21 (((cfg0.win 2).blk t).view.emb y) = V m c main_v21 y
  obtain ⟨-, -, -, -, e4, e5, -⟩ := idx_facts t
  have he : ((cfg0.win 2).blk t).view.emb y = y := by
    funext a; apply Fin.ext
    match a with
    | ⟨0, _⟩ => show win0_2.index t (0 : Fin 2) * 512 + 1 * (y 0).val = (y 0).val; omega
    | ⟨1, _⟩ => show win0_2.index t (1 : Fin 2) * 2048 + 1 * (y 1).val = (y 1).val; omega
  rw [he]

/-- The array index under y in the output block of point t is (512 t + y0, y1). -/
theorem emb3 (t : Fin cfg0.N) (y : S512x512.Idx) :
    ((((cfg0.win 3).blk t).view.emb y) 0).val = t.val * 512 + (y 0).val ∧ ((((cfg0.win 3).blk t).view.emb y) 1).val = (y 1).val := by
  obtain ⟨-, -, -, -, -, -, e6, e7⟩ := idx_facts t
  constructor
  · show win0_3.index t (0 : Fin 2) * 512 + 1 * (y 0).val = _; omega
  · show win0_3.index t (1 : Fin 2) * 512 + 1 * (y 1).val = _; omega

/-- What point t writes back is block t of regionOut of the arrays as the region finds them. -/
theorem flushed_eq (c : Dev nD) (t : Fin cfg0.N) :
    (dats m 0 c).flushed 3 t
      = ((cfg0.win 3).blk t).view.read (Elt Ideal) (regionOut (V m c main_v22) (V m c main_v10) (V m c main_v21)) := by
  show (cfg0.win 3).cut (grid0.coords t) ((dats m 0 c).after 3 t) = _
  rw [after0_3]
  unfold out0_3
  rw [View.canon_unit_zero hz]
  simp only [View.ld_unit_zero (S := S512x512) hz, View.ld_unit_zero (S := S2048x512) hz, View.ld_unit_zero (S := S512x2048) hz]
  funext y
  exact point_eq (iblk m c 0 t) (iblk m c 1 t) (iblk m c 2 t) (V m c main_v22) (V m c main_v10) (V m c main_v21) t.val
    (fun y j h0 h1 => blk0_read m c t y j h0 h1) (fun y => blk1_read m c t y) (fun y => blk2_read m c t y) y
    (((cfg0.win 3).blk t).view.emb y) (emb3 t y).1 (emb3 t y).2

/-- An index of the output array is in point t's block iff each coordinate is in the block's range. -/
theorem mem_blk (t : Fin cfg0.N) (i : S65536x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v23).slice (win0_3.rect t)).set ↔ _
  rw [View.set_slice_whole, Rect.mem_set_unit]
  exact Iff.rfl

/-- Every index of the output array is in the block of the point numbered by its row over 512. -/
theorem cover (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  have hN : grid0.N = 128 := N_0
  have ht : (i 0).val / 512 < cfg0.N := by show (i 0).val / 512 < grid0.N; omega
  obtain ⟨-, -, -, -, -, -, e6, e7⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    have : win0_3.index ⟨(i 0).val / 512, ht⟩ (0 : Fin 2) = (i 0).val / 512 := e6
    omega
  | ⟨1, _⟩ =>
    show win0_3.index ⟨(i 0).val / 512, ht⟩ (1 : Fin 2) * 512 ≤ (i 1).val ∧ (i 1).val < win0_3.index ⟨(i 0).val / 512, ht⟩ (1 : Fin 2) * 512 + 512
    omega

/-- The output array after the region. -/
theorem final (c : Dev nD) :
    (dats m 0 c).arrAt 3 cfg0.N = regionOut (V m c main_v22) (V m c main_v10) (V m c main_v21) :=
  (dats m 0 c).arrAt_eq_of_cover 3 _ (fun t _ => flushed_eq m c t) cover

end Cert.KernelIdeal.Arr

end
-- ==== Proof.Weights.lean ====
/-
  The weight quantiser, as both programs spell it on the host, read at an index.

  Both programs compute the scale of a weight tensor w as max(eps, (0 + sum |w|) / 2^20), a scalar; spread it over
  the tensor; divide w by it, round, clip to [-1, 1] and multiply by it again. Read at an index j this is the
  three-level quantisation tQuant w j of the specification.
-/
import Idealize.ShloMosaic.Lib.Pipeline.Value
import Idealize.ShloMosaic.Lib.ValueIdx
import Idealize.ShloMosaic.PureOps.Ideal.Laws
import proofs.«155871_j83803401879881_1_alg».proof.Proof.Row

noncomputable section

namespace Cert.Quant

open Idealize.ShloMosaic Idealize.ShloMosaic.ValueIdx

/-- A scalar spread over a tensor reads, everywhere, the scalar. -/
theorem bcastScalar_apply {s : Shape} (h : (⟨0, ![]⟩ : Shape).BroadcastsInDim s ![]) (x : (⟨0, ![]⟩ : Shape).Idx → EReal) (j : s.Idx) :
    broadcastInDim s ![] h x j = x ix0 :=
  broadcastInDim_apply ![] h x j ix0 (fun a => a.elim0)

/-- The scalar the programs compute from a tensor — the larger of eps and the sum of magnitudes (from zero) over
    2^20 — is the specification's scale. -/
theorem tscale_apply {s : Shape} {axes : List (Fin s.rank)} (w : FVec Ideal s .f32) (hred : s.ReducesTo axes (⟨0, ![]⟩ : Shape))
    (hS : 0 < (⟨0, ![]⟩ : Shape).numel) (i : (⟨0, ![]⟩ : Shape).Idx) :
    maximumf (constant (F := Ideal) ⟨0, ![]⟩ .f32 0x3727C5AC#32)
        (Host.divf (Host.reduceAdd (Host.absf w) (constant (F := Ideal) ⟨0, ![]⟩ .f32 0x00000000#32) hred hS)
          (constant (F := Ideal) ⟨0, ![]⟩ .f32 0x49800000#32)) i
      = tScale w := by
  show max cEps (Ideal.div (Host.reduceAdd (Host.absf w) (constant (F := Ideal) ⟨0, ![]⟩ .f32 0x00000000#32) hred hS i) cCount) = _
  unfold tScale
  simp only [Host.reduceAdd, Ideal.hostReduceAdd_def]
  rw [Ideal.hostReduceAdd_total hred (fun b => b.elim0)]
  rfl

/-- The whole chain at an index: the tensor over its scale, rounded, clipped to [-1, 1], times the scale. -/
theorem wquant_apply {s : Shape} {axes : List (Fin s.rank)} (w : FVec Ideal s .f32) (bc : (⟨0, ![]⟩ : Shape).BroadcastsInDim s ![])
    (hred : s.ReducesTo axes (⟨0, ![]⟩ : Shape)) (hS : 0 < (⟨0, ![]⟩ : Shape).numel) (j : s.Idx) :
    mulf
      (minimumf (broadcastInDim s ![] bc (constant (F := Ideal) ⟨0, ![]⟩ .f32 0x3F800000#32))
        (maximumf (broadcastInDim s ![] bc (constant (F := Ideal) ⟨0, ![]⟩ .f32 0xBF800000#32))
          (Host.roundeven (Host.divf w (broadcastInDim s ![] bc
            (maximumf (constant (F := Ideal) ⟨0, ![]⟩ .f32 0x3727C5AC#32)
              (Host.divf (Host.reduceAdd (Host.absf w) (constant (F := Ideal) ⟨0, ![]⟩ .f32 0x00000000#32) hred hS)
                (constant (F := Ideal) ⟨0, ![]⟩ .f32 0x49800000#32))))))))
      (broadcastInDim s ![] bc
        (maximumf (constant (F := Ideal) ⟨0, ![]⟩ .f32 0x3727C5AC#32)
          (Host.divf (Host.reduceAdd (Host.absf w) (constant (F := Ideal) ⟨0, ![]⟩ .f32 0x00000000#32) hred hS)
            (constant (F := Ideal) ⟨0, ![]⟩ .f32 0x49800000#32)))) j
      = tQuant w j := by
  generalize hSC : maximumf (constant (F := Ideal) ⟨0, ![]⟩ .f32 0x3727C5AC#32)
      (Host.divf (Host.reduceAdd (Host.absf w) (constant (F := Ideal) ⟨0, ![]⟩ .f32 0x00000000#32) hred hS)
        (constant (F := Ideal) ⟨0, ![]⟩ .f32 0x49800000#32)) = SC
  have hsc : SC ix0 = tScale w := by rw [← hSC]; exact tscale_apply w hred hS ix0
  show min (broadcastInDim s _ bc (constant (F := Ideal) ⟨0, ![]⟩ .f32 0x3F800000#32) j)
      (max (broadcastInDim s _ bc (constant (F := Ideal) ⟨0, ![]⟩ .f32 0xBF800000#32) j)
        (Ideal.liftRound Ideal.roundHalfEven (Ideal.div (w j) (broadcastInDim s _ bc SC j)))) * broadcastInDim s _ bc SC j = _
  rw [bcastScalar_apply, bcastScalar_apply, bcastScalar_apply, hsc]
  rfl

/-- The chain as one function of the tensor. -/
def wq {s : Shape} {axes : List (Fin s.rank)} (w : FVec Ideal s .f32) (bc : (⟨0, ![]⟩ : Shape).BroadcastsInDim s ![])
    (hred : s.ReducesTo axes (⟨0, ![]⟩ : Shape)) (hS : 0 < (⟨0, ![]⟩ : Shape).numel) : FVec Ideal s .f32 :=
  mulf
    (minimumf (broadcastInDim s ![] bc (constant (F := Ideal) ⟨0, ![]⟩ .f32 0x3F800000#32))
      (maximumf (broadcastInDim s ![] bc (constant (F := Ideal) ⟨0, ![]⟩ .f32 0xBF800000#32))
        (Host.roundeven (Host.divf w (broadcastInDim s ![] bc
          (maximumf (constant (F := Ideal) ⟨0, ![]⟩ .f32 0x3727C5AC#32)
            (Host.divf (Host.reduceAdd (Host.absf w) (constant (F := Ideal) ⟨0, ![]⟩ .f32 0x00000000#32) hred hS)
              (constant (F := Ideal) ⟨0, ![]⟩ .f32 0x49800000#32))))))))
    (broadcastInDim s ![] bc
      (maximumf (constant (F := Ideal) ⟨0, ![]⟩ .f32 0x3727C5AC#32)
        (Host.divf (Host.reduceAdd (Host.absf w) (constant (F := Ideal) ⟨0, ![]⟩ .f32 0x00000000#32) hred hS)
          (constant (F := Ideal) ⟨0, ![]⟩ .f32 0x49800000#32))))

theorem wq_apply {s : Shape} {axes : List (Fin s.rank)} (w : FVec Ideal s .f32) (bc : (⟨0, ![]⟩ : Shape).BroadcastsInDim s ![])
    (hred : s.ReducesTo axes (⟨0, ![]⟩ : Shape)) (hS : 0 < (⟨0, ![]⟩ : Shape).numel) (j : s.Idx) :
    wq w bc hred hS j = tQuant w j := wquant_apply w bc hred hS j

end Cert.Quant

end
-- ==== Proof.KHost.lean ====
/-
  The arrays the region is entered with, as functions of the program's arguments.

  Before the region the program quantises the two weight tensors on the host (each by its own mean magnitude) and
  views the 8 x 8192 x 512 input as a 65536 x 512 token matrix. So the region finds: the three-level quantisation
  of the first-layer weights, that of the second-layer weights, and at row 8192 b + s of the token matrix row (b, s)
  of the input.
-/
import proofs.«155871_j83803401879881_1_alg».proof.Proof.Gen.KernelIdeal.Frame
import proofs.«155871_j83803401879881_1_alg».proof.Proof.Weights
import Idealize.ShloMosaic.Lib.StableHlo.Run
import Idealize.ShloMosaic.Lib.Pipeline.Value

set_option pp.maxSteps 3000
set_option pp.deepTerms false

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen Cert.Quant

variable (m : (ℓ : Loc nD τ sig) → Buf (Elt Ideal) ℓ)

/-- The first-layer weights the region finds: the argument's three-level quantisation. -/
theorem V_up (c : Dev nD) (j : S2048x512.Idx) :
    (V (F := Ideal) m c main_v10 : S2048x512.Idx → EReal) j = tQuant (m ((c : Thread nD τ).loc main_arg1)) j := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  simp only [TRef.toBuf, TRef.ofBuf, cast_eq, id]
  exact wquant_apply (m ((c : Thread nD τ).loc main_arg1)) bcast_S_S2048x512 reducesTo_S2048x512_S_d0_1 h_S_ j

/-- The second-layer weights the region finds: the argument's three-level quantisation. -/
theorem V_down (c : Dev nD) (j : S512x2048.Idx) :
    (V (F := Ideal) m c main_v21 : S512x2048.Idx → EReal) j = tQuant (m ((c : Thread nD τ).loc main_arg2)) j := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.toBuf, TRef.ofBuf, cast_eq, id]
  exact wquant_apply (m ((c : Thread nD τ).loc main_arg2)) bcast_S_S512x2048 reducesTo_S512x2048_S_d0_1 h_S_ j

/-- The token matrix the region finds: row 8192 b + s is row (b, s) of the input. -/
theorem V_tok (c : Dev nD) (b : Fin 8) (s : Fin 8192) (i : Fin 512) (r : Fin 65536) (hr : r.val = b.val * 8192 + s.val) :
    (V (F := Ideal) m c main_v22 : S65536x512.Idx → EReal) (ix2 r i) = m ((c : Thread nD τ).loc main_arg0) (ix3 b s i) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  show shapeCast S65536x512 (m ((c : Thread nD τ).loc main_arg0)) shapeCasts_S8x8192x512_S65536x512 (ix2 r i) = _
  refine shapeCast_apply _ shapeCasts_S8x8192x512_S65536x512 (ix2 r i) (ix3 b s i) ?_
  rw [Shape.rowMajor_val_three, Shape.rowMajor_val_two]
  show (b.val * 8192 + s.val) * 512 + i.val = r.val * 512 + i.val
  rw [hr]

end Cert.KernelIdeal.Host

end
-- ==== Proof.Net.lean ====
/-
  The network's output as one function of the three argument tensors.

  Entry (b, s, d) of the output is the row function of row (b, s) of the input x, with the first-layer weights wu
  and the second-layer weights wd each quantised to three levels by its own mean magnitude.
-/
import Idealize.ShloMosaic.Lib.ValueIdx
import proofs.«155871_j83803401879881_1_alg».proof.Proof.Row

noncomputable section

namespace Cert.Quant

open Idealize.ShloMosaic Idealize.ShloMosaic.ValueIdx

/-- The output tensor [8, 8192, 512] of the input x [8, 8192, 512] and the weights wu [2048, 512], wd [512, 2048]. -/
def netOut (x : (⟨3, ![8, 8192, 512]⟩ : Shape).Idx → EReal) (wu : (⟨2, ![2048, 512]⟩ : Shape).Idx → EReal)
    (wd : (⟨2, ![512, 2048]⟩ : Shape).Idx → EReal) : (⟨3, ![8, 8192, 512]⟩ : Shape).Idx → EReal :=
  fun j => outRow (fun i : Fin 512 => x (ix3 (⟨(j 0).val, (j 0).isLt⟩ : Fin 8) (⟨(j 1).val, (j 1).isLt⟩ : Fin 8192) i))
    (fun (f : Fin 2048) (i : Fin 512) => tQuant wu (ix2 f i)) (fun (d : Fin 512) (f : Fin 2048) => tQuant wd (ix2 d f))
    (⟨(j 2).val, (j 2).isLt⟩ : Fin 512)

theorem netOut_apply (x : (⟨3, ![8, 8192, 512]⟩ : Shape).Idx → EReal) (wu : (⟨2, ![2048, 512]⟩ : Shape).Idx → EReal)
    (wd : (⟨2, ![512, 2048]⟩ : Shape).Idx → EReal) (b : Fin 8) (s : Fin 8192) (d : Fin 512) :
    netOut x wu wd (ix3 b s d) = outRow (fun i : Fin 512 => x (ix3 b s i)) (fun (f : Fin 2048) (i : Fin 512) => tQuant wu (ix2 f i))
      (fun (d' : Fin 512) (f : Fin 2048) => tQuant wd (ix2 d' f)) d := rfl

end Cert.Quant

end
-- ==== Proof.KRun.lean ====
/-
  The kernel program's run, with its result named.

  After the region the program views the 65536 x 512 output as 8 x 8192 x 512. Entry (b, s, d) of the result is
  therefore entry (8192 b + s, d) of the region's output, the row function of row 8192 b + s of the token matrix,
  which is row (b, s) of the input; and the weight matrices the region found are the arguments' quantisations.
  So the result is netOut of the three arguments.
-/
import proofs.«155871_j83803401879881_1_alg».proof.Proof.KArray
import proofs.«155871_j83803401879881_1_alg».proof.Proof.KHost
import proofs.«155871_j83803401879881_1_alg».proof.Proof.Net

noncomputable section

namespace Cert.KernelIdeal.Run

open Idealize.ShloMosaic Idealize.ShloMosaic.TcCoe Idealize.ShloMosaic.ValueIdx Idealize.SL.Sem Idealize.ShloMosaic.StableHlo
open Cert.KernelIdeal Cert.KernelIdeal.Gen Cert.Quant Cert.KernelIdeal.Arr Cert.KernelIdeal.Host

variable (m : (ℓ : Loc nD τ sig) → Buf (Elt Ideal) ℓ) (ρ : Dev nD → PrngReg)

/-- The result buffer after the lines that follow the region: the region's output, viewed 8 x 8192 x 512. -/
theorem tail_eq (c : Dev nD) :
    (Pipeline.afterTail₀ cfgs (dats m) 0 (V0 m) [hostOps1] c main_v24 : S8x8192x512.Idx → EReal)
      = shapeCast S8x8192x512 (regionOut (V m c main_v22) (V m c main_v10) (V m c main_v21)) shapeCasts_S65536x512_S8x8192x512 := by
  unfold Pipeline.afterTail₀
  show StableHlo.after hostOps1 _ (Proc.devRef .tc main_v24) = _
  dsimp only [hostOps1]
  after_results
  have hw : Pipeline.withArrays (cfgs 0).spec c (V0 m c) (fun w => (dats m 0 c).arrAt w (cfgs 0).N) (Proc.devRef .tc main_v23)
      = regionOut (V m c main_v22) (V m c main_v10) (V m c main_v21) :=
    (Pipeline.withArrays_arr spec0 launch0.win.arr_inj c _ _ 3).trans (final m c)
  rw [hw]
  rfl

/-- The result buffer is the network's output of the three arguments. -/
theorem result_eq (c : Dev nD) :
    (Pipeline.afterTail₀ cfgs (dats m) 0 (V0 m) [hostOps1] c main_v24 : S8x8192x512.Idx → EReal)
      = netOut (m ((c : Thread nD τ).loc main_arg0)) (m ((c : Thread nD τ).loc main_arg1)) (m ((c : Thread nD τ).loc main_arg2)) := by
  rw [tail_eq]
  funext j
  obtain ⟨b, s, d, rfl⟩ : ∃ (b : Fin 8) (s : Fin 8192) (d : Fin 512), j = ix3 b s d := ⟨j 0, j 1, j 2, eq_ix3 j⟩
  have hr : b.val * 8192 + s.val < 65536 := by have := b.isLt; have := s.isLt; omega
  rw [shapeCast_apply _ shapeCasts_S65536x512_S8x8192x512 (ix3 b s d) (ix2 (⟨b.val * 8192 + s.val, hr⟩ : Fin 65536) d) (by
    rw [Shape.rowMajor_val_two, Shape.rowMajor_val_three]
    rfl)]
  rw [netOut_apply]
  show outRow (fun i : Fin 512 => V m c main_v22 (ix2 (⟨b.val * 8192 + s.val, hr⟩ : Fin 65536) i))
      (fun (f : Fin 2048) (i : Fin 512) => V m c main_v10 (ix2 f i)) (fun (d' : Fin 512) (f : Fin 2048) => V m c main_v21 (ix2 d' f)) d = _
  have hx : (fun i : Fin 512 => (V m c main_v22 : S65536x512.Idx → EReal) (ix2 (⟨b.val * 8192 + s.val, hr⟩ : Fin 65536) i))
      = fun i : Fin 512 => m ((c : Thread nD τ).loc main_arg0) (ix3 b s i) := funext fun i => V_tok m c b s i _ rfl
  have hu : (fun (f : Fin 2048) (i : Fin 512) => (V m c main_v10 : S2048x512.Idx → EReal) (ix2 f i))
      = fun (f : Fin 2048) (i : Fin 512) => tQuant (m ((c : Thread nD τ).loc main_arg1)) (ix2 f i) :=
    funext fun f => funext fun i => V_up m c (ix2 f i)
  have hd : (fun (d' : Fin 512) (f : Fin 2048) => (V m c main_v21 : S512x2048.Idx → EReal) (ix2 d' f))
      = fun (d' : Fin 512) (f : Fin 2048) => tQuant (m ((c : Thread nD τ).loc main_arg2)) (ix2 d' f) :=
    funext fun d' => funext fun f => V_down m c (ix2 d' f)
  rw [hx, hu, hd]

set_option backward.isDefEq.respectTransparency.types false in
/-- The kernel program's run: every weakly fair execution terminates, the result buffer at the network's output of
    the arguments, the arguments unchanged. -/
theorem run : θ_run defs (onTc (τ := τ) (main (F := Ideal))) ⟨m, fun _ => 0, ρ⟩ (fun r => ∀ c : Dev nD,
      r.2.mem ((c.tc : Thread nD τ).loc main_v24)
        = netOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v24 (Pipeline.mem_restRefs_of main_v24 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.Cols3.lean ====
/-
  The row quantiser as the reference spells it, on [A, B, n] tensors, read at an index.

  The reference keeps the batch and sequence axes apart: a row is (b, s, .) of an [A, B, n] tensor. Its largest
  magnitude is a maximum over the last axis, an [A, B] tensor viewed as [A, B, 1]; the scale 127 over it is spread
  back over the n entries. Read at (b, s, i) the quantised tensor is the quantised row (b, s) at i.
-/
import Idealize.ShloMosaic.Lib.Pipeline.Value
import Idealize.ShloMosaic.Lib.ValueIdx
import Idealize.ShloMosaic.PureOps.Ideal.Laws
import Idealize.ShloMosaic.PureOps.Reduce
import proofs.«155871_j83803401879881_1_alg».proof.Proof.Weights

noncomputable section

namespace Cert.Quant

open Idealize.ShloMosaic Idealize.ShloMosaic.ValueIdx

variable {α : Type}

/-- Row (b, s) of an [A, B, n] tensor with entry k put back is the index (b, s, k). -/
theorem lift_row3 {A B n : ℕ} (h : (⟨3, ![A, B, n]⟩ : Shape).Reduces [2] (⟨2, ![A, B]⟩ : Shape)) (b : Fin A) (s : Fin B)
    (k : Fin ((⟨3, ![A, B, n]⟩ : Shape).size 2)) : h.lift (ix2 b s) k = ix3 b s (⟨k.val, k.isLt⟩ : Fin n) := by
  funext c; apply Fin.ext
  fin_cases c <;> rfl

/-- The host's maximum over the last axis of the magnitudes, from minus infinity, at (b, s): the largest
    magnitude of row (b, s). -/
theorem hostRowmax_abs_apply {A B n : ℕ} (v : FVec Ideal ⟨3, ![A, B, n]⟩ .f32)
    (h' : (⟨3, ![A, B, n]⟩ : Shape).ReducesTo [2] (⟨2, ![A, B]⟩ : Shape)) (h : (⟨3, ![A, B, n]⟩ : Shape).Reduces [2] (⟨2, ![A, B]⟩ : Shape))
    (hu : 0 < (⟨0, ![]⟩ : Shape).numel) (b : Fin A) (s : Fin B) :
    Host.reduce FloatOps.maximumf (Host.absf v) (constant (F := Ideal) ⟨0, ![]⟩ .f32 0xFF800000#32) h' hu (ix2 b s)
      = rowAmax (fun k : Fin n => v (ix3 b s k)) := by
  rw [Host.reduce_eq_fold_single FloatOps.maximumf (Host.absf v) _ h' h hu]
  have hf : (Host.absf v ∘ h.lift (ix2 b s)) = fun k : Fin n => max (v (ix3 b s k)) (-(v (ix3 b s k))) := funext fun k => by
    show FloatOps.hostAbsf (v (h.lift (ix2 b s) k)) = _
    rw [lift_row3 h b s k]; rfl
  unfold rowAmax
  exact congrArg (fun f => Finset.fold max (Ideal.ofBits .f32 0xFF800000#32) f (Finset.univ : Finset (Fin n))) hf

/-- An [A, B] tensor viewed as [A, B, 1] reads, at (b, s, z), the tensor at (b, s). -/
theorem bcast_ab_ab1_apply {A B : ℕ} (x : (⟨2, ![A, B]⟩ : Shape).Idx → α)
    (h : (⟨2, ![A, B]⟩ : Shape).BroadcastsInDim (⟨3, ![A, B, 1]⟩ : Shape) ![0, 1]) (b : Fin A) (s : Fin B) (z : Fin 1) :
    broadcastInDim ⟨3, ![A, B, 1]⟩ ![0, 1] h x (ix3 b s z) = x (ix2 b s) :=
  broadcastInDim_apply ![0, 1] h x (ix3 b s z) (ix2 b s) fun a => by
    match a with
    | ⟨0, _⟩ =>
      show b.val = if A = 1 then 0 else b.val
      split
      · have := b.isLt; omega
      · rfl
    | ⟨1, _⟩ =>
      show s.val = if B = 1 then 0 else s.val
      split
      · have := s.isLt; omega
      · rfl

/-- An [A, B, 1] tensor spread over n entries reads, at (b, s, i), the tensor at (b, s, 0). -/
theorem bcast_ab1_abn_apply {A B n : ℕ} (x : (⟨3, ![A, B, 1]⟩ : Shape).Idx → α)
    (h : (⟨3, ![A, B, 1]⟩ : Shape).BroadcastsInDim (⟨3, ![A, B, n]⟩ : Shape) ![0, 1, 2]) (b : Fin A) (s : Fin B) (i : Fin n) :
    broadcastInDim ⟨3, ![A, B, n]⟩ ![0, 1, 2] h x (ix3 b s i) = x (ix3 b s (0 : Fin 1)) :=
  broadcastInDim_apply ![0, 1, 2] h x (ix3 b s i) (ix3 b s (0 : Fin 1)) fun a => by
    match a with
    | ⟨0, _⟩ =>
      show b.val = if A = 1 then 0 else b.val
      split
      · have := b.isLt; omega
      · rfl
    | ⟨1, _⟩ =>
      show s.val = if B = 1 then 0 else s.val
      split
      · have := s.isLt; omega
      · rfl
    | ⟨2, _⟩ => rfl

/-- The scale tensor [A, B, 1]: 127 over each row's largest magnitude (at least eps). -/
def rscale {A B n : ℕ} (v : FVec Ideal ⟨3, ![A, B, n]⟩ .f32)
    (bc1 : (⟨0, ![]⟩ : Shape).BroadcastsInDim (⟨3, ![A, B, 1]⟩ : Shape) ![])
    (bc2 : (⟨2, ![A, B]⟩ : Shape).BroadcastsInDim (⟨3, ![A, B, 1]⟩ : Shape) ![0, 1])
    (h' : (⟨3, ![A, B, n]⟩ : Shape).ReducesTo [2] (⟨2, ![A, B]⟩ : Shape)) (hu : 0 < (⟨0, ![]⟩ : Shape).numel) :
    FVec Ideal ⟨3, ![A, B, 1]⟩ .f32 :=
  Host.divf (broadcastInDim ⟨3, ![A, B, 1]⟩ ![] bc1 (constant (F := Ideal) ⟨0, ![]⟩ .f32 0x42FE0000#32))
    (maximumf (broadcastInDim ⟨3, ![A, B, 1]⟩ ![] bc1 (constant (F := Ideal) ⟨0, ![]⟩ .f32 0x3727C5AC#32))
      (broadcastInDim ⟨3, ![A, B, 1]⟩ ![0, 1] bc2
        (Host.reduce FloatOps.maximumf (Host.absf v) (constant (F := Ideal) ⟨0, ![]⟩ .f32 0xFF800000#32) h' hu)))

/-- The tensor quantised row by row. -/
def rq {A B n : ℕ} (v : FVec Ideal ⟨3, ![A, B, n]⟩ .f32)
    (bc1 : (⟨0, ![]⟩ : Shape).BroadcastsInDim (⟨3, ![A, B, 1]⟩ : Shape) ![])
    (bc2 : (⟨2, ![A, B]⟩ : Shape).BroadcastsInDim (⟨3, ![A, B, 1]⟩ : Shape) ![0, 1])
    (bc3 : (⟨3, ![A, B, 1]⟩ : Shape).BroadcastsInDim (⟨3, ![A, B, n]⟩ : Shape) ![0, 1, 2])
    (bcn : (⟨0, ![]⟩ : Shape).BroadcastsInDim (⟨3, ![A, B, n]⟩ : Shape) ![])
    (h' : (⟨3, ![A, B, n]⟩ : Shape).ReducesTo [2] (⟨2, ![A, B]⟩ : Shape)) (hu : 0 < (⟨0, ![]⟩ : Shape).numel) :
    FVec Ideal ⟨3, ![A, B, n]⟩ .f32 :=
  Host.divf
    (minimumf (broadcastInDim ⟨3, ![A, B, n]⟩ ![] bcn (constant (F := Ideal) ⟨0, ![]⟩ .f32 0x42FE0000#32))
      (maximumf (broadcastInDim ⟨3, ![A, B, n]⟩ ![] bcn (constant (F := Ideal) ⟨0, ![]⟩ .f32 0xC3000000#32))
        (Host.roundeven (mulf v (broadcastInDim ⟨3, ![A, B, n]⟩ ![0, 1, 2] bc3 (rscale v bc1 bc2 h' hu))))))
    (broadcastInDim ⟨3, ![A, B, n]⟩ ![0, 1, 2] bc3 (rscale v bc1 bc2 h' hu))

/-- The scale tensor at (b, s, 0) is the scale of row (b, s). -/
theorem rscale_apply {A B n : ℕ} (v : FVec Ideal ⟨3, ![A, B, n]⟩ .f32)
    (bc1 : (⟨0, ![]⟩ : Shape).BroadcastsInDim (⟨3, ![A, B, 1]⟩ : Shape) ![])
    (bc2 : (⟨2, ![A, B]⟩ : Shape).BroadcastsInDim (⟨3, ![A, B, 1]⟩ : Shape) ![0, 1])
    (h' : (⟨3, ![A, B, n]⟩ : Shape).ReducesTo [2] (⟨2, ![A, B]⟩ : Shape)) (h : (⟨3, ![A, B, n]⟩ : Shape).Reduces [2] (⟨2, ![A, B]⟩ : Shape))
    (hu : 0 < (⟨0, ![]⟩ : Shape).numel) (b : Fin A) (s : Fin B) :
    rscale v bc1 bc2 h' hu (ix3 b s (0 : Fin 1)) = rowScale (fun k : Fin n => v (ix3 b s k)) := by
  unfold rscale rowScale
  show Ideal.div (broadcastInDim ⟨3, ![A, B, 1]⟩ _ bc1 _ (ix3 b s (0 : Fin 1)))
      (max (broadcastInDim ⟨3, ![A, B, 1]⟩ _ bc1 _ (ix3 b s (0 : Fin 1))) (broadcastInDim ⟨3, ![A, B, 1]⟩ _ bc2 _ (ix3 b s (0 : Fin 1)))) = _
  rw [bcastScalar_apply, bcastScalar_apply, bcast_ab_ab1_apply, hostRowmax_abs_apply v h' h hu b s]
  rfl

/-- The quantised tensor at (b, s, i) is the quantised row (b, s) at i. -/
theorem rq_apply {A B n : ℕ} (v : FVec Ideal ⟨3, ![A, B, n]⟩ .f32)
    (bc1 : (⟨0, ![]⟩ : Shape).BroadcastsInDim (⟨3, ![A, B, 1]⟩ : Shape) ![])
    (bc2 : (⟨2, ![A, B]⟩ : Shape).BroadcastsInDim (⟨3, ![A, B, 1]⟩ : Shape) ![0, 1])
    (bc3 : (⟨3, ![A, B, 1]⟩ : Shape).BroadcastsInDim (⟨3, ![A, B, n]⟩ : Shape) ![0, 1, 2])
    (bcn : (⟨0, ![]⟩ : Shape).BroadcastsInDim (⟨3, ![A, B, n]⟩ : Shape) ![])
    (h' : (⟨3, ![A, B, n]⟩ : Shape).ReducesTo [2] (⟨2, ![A, B]⟩ : Shape)) (h : (⟨3, ![A, B, n]⟩ : Shape).Reduces [2] (⟨2, ![A, B]⟩ : Shape))
    (hu : 0 < (⟨0, ![]⟩ : Shape).numel) (b : Fin A) (s : Fin B) (i : Fin n) :
    rq v bc1 bc2 bc3 bcn h' hu (ix3 b s i) = rowQ (fun k : Fin n => v (ix3 b s k)) i := by
  unfold rq rowQ
  show Ideal.div (min (broadcastInDim ⟨3, ![A, B, n]⟩ _ bcn _ (ix3 b s i)) (max (broadcastInDim ⟨3, ![A, B, n]⟩ _ bcn _ (ix3 b s i))
      (Ideal.liftRound Ideal.roundHalfEven (v (ix3 b s i) * broadcastInDim ⟨3, ![A, B, n]⟩ _ bc3 (rscale v bc1 bc2 h' hu) (ix3 b s i)))))
    (broadcastInDim ⟨3, ![A, B, n]⟩ _ bc3 (rscale v bc1 bc2 h' hu) (ix3 b s i)) = _
  rw [bcastScalar_apply, bcastScalar_apply, bcast_ab1_abn_apply, rscale_apply v bc1 bc2 h' h hu b s]
  rfl

/-- Rounding and clipping to eight bits, as the reference spells it, at an index. -/
theorem hclip_apply {s : Shape} (v : FVec Ideal s .f32) (bc : (⟨0, ![]⟩ : Shape).BroadcastsInDim s ![]) (j : s.Idx) :
    minimumf (broadcastInDim s ![] bc (constant (F := Ideal) ⟨0, ![]⟩ .f32 0x42FE0000#32))
      (maximumf (broadcastInDim s ![] bc (constant (F := Ideal) ⟨0, ![]⟩ .f32 0xC3000000#32)) (Host.roundeven v)) j
      = clip8 (rnd (v j)) := by
  show min (broadcastInDim s _ bc _ j) (max (broadcastInDim s _ bc _ j) (Ideal.liftRound Ideal.roundHalfEven (v j))) = _
  rw [bcastScalar_apply, bcastScalar_apply]
  rfl

/-- Rectification, as the reference spells it, at an index. -/
theorem hrelu_apply {s : Shape} (v : FVec Ideal s .f32) (bc : (⟨0, ![]⟩ : Shape).BroadcastsInDim s ![]) (j : s.Idx) :
    maximumf v (broadcastInDim s ![] bc (constant (F := Ideal) ⟨0, ![]⟩ .f32 0x00000000#32)) j = max (v j) cZero := by
  show max (v j) (broadcastInDim s _ bc _ j) = _
  rw [bcastScalar_apply]
  rfl

end Cert.Quant

end
-- ==== Proof.RefStages.lean ====
/-
  The reference's five stages, as functions of whole tensors.

  The reference program is a straight line of 114 host operations. Cut at the natural boundaries it is: the
  first-layer weights quantised (upW); the input rows quantised (inQ); their product, rectified, rounded and
  clipped (hid); the second-layer weights quantised (downW); the hidden rows quantised (hidQ); the second product.
  Every quantised value is written in the straight-through form a + (q - a) (steArr).
-/
import proofs.«155871_j83803401879881_1_alg».proof.Proof.RefOps
import proofs.«155871_j83803401879881_1_alg».proof.Proof.Cols3
import Idealize.ShloMosaic.Lib.StableHlo.Run

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

/-- The straight-through form on whole tensors. -/
def steArr {s : Shape} (a q : FVec Ideal s .f32) : FVec Ideal s .f32 := addf a (subf q a)

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## The stages -/

/-- The first-layer weights, quantised, straight through. -/
def upW (w : FVec Ideal S2048x512 .f32) : FVec Ideal S2048x512 .f32 :=
  steArr w (wq w bcast_S_S2048x512 reducesTo_S2048x512_S_d0_1 h_S_)

/-- The second-layer weights, quantised, straight through. -/
def downW (w : FVec Ideal S512x2048 .f32) : FVec Ideal S512x2048 .f32 :=
  steArr w (wq w bcast_S_S512x2048 reducesTo_S512x2048_S_d0_1 h_S_)

/-- The input rows, quantised, straight through. -/
def inQ (x : FVec Ideal S8x8192x512 .f32) : FVec Ideal S8x8192x512 .f32 :=
  steArr x (rq x bcast_S_S8x8192x1 bcast_S8x8192_S8x8192x1_0_1 bcast_S8x8192x1_S8x8192x512_0_1_2 bcast_S_S8x8192x512
    reducesTo_S8x8192x512_S8x8192_d2 h_S_)

/-- The rectified first product. -/
def pre (a : FVec Ideal S8x8192x512 .f32) (u : FVec Ideal S2048x512 .f32) : FVec Ideal S8x8192x2048 .f32 :=
  maximumf (Host.dotGeneral dot_S8x8192x512_S2048x512_S8x8192x2048_2_1_01_0_n_n none a u)
    (broadcastInDim S8x8192x2048 ![] bcast_S_S8x8192x2048 (constant (F := Ideal) S_ .f32 0x00000000#32))

/-- The hidden rows: the rectified first product, rounded and clipped, straight through. -/
def hid (a : FVec Ideal S8x8192x512 .f32) (u : FVec Ideal S2048x512 .f32) : FVec Ideal S8x8192x2048 .f32 :=
  steArr (pre a u)
    (minimumf (broadcastInDim S8x8192x2048 ![] bcast_S_S8x8192x2048 (constant (F := Ideal) S_ .f32 0x42FE0000#32))
      (maximumf (broadcastInDim S8x8192x2048 ![] bcast_S_S8x8192x2048 (constant (F := Ideal) S_ .f32 0xC3000000#32))
        (Host.roundeven (pre a u))))

/-- The hidden rows, quantised, straight through. -/
def hidQ (y : FVec Ideal S8x8192x2048 .f32) : FVec Ideal S8x8192x2048 .f32 :=
  steArr y (rq y bcast_S_S8x8192x1 bcast_S8x8192_S8x8192x1_0_1 bcast_S8x8192x1_S8x8192x2048_0_1_2 bcast_S_S8x8192x2048
    reducesTo_S8x8192x2048_S8x8192_d2 h_S_)

end Cert.ReferenceIdeal.RefValue

end
-- ==== Proof.RefValue.lean ====
/-
  The reference's result read at an index.

  At (b, s, d) the reference's result is the straight-through row form outRowSte of row (b, s) of the input,
  the two weight matrices and their three-level quantisations: each stage of the reference acts on a row (b, s)
  alone — the row quantisers by the row's own largest magnitude, the products by contraction over the row — so the
  stages read at an index are the row function's stages.
-/
import proofs.«155871_j83803401879881_1_alg».proof.Proof.RefStages
import Idealize.ShloMosaic.Lib.ValueIdx

noncomputable section

namespace Cert.ReferenceIdeal.RefValue

open Idealize.ShloMosaic Idealize.ShloMosaic.TcCoe Idealize.ShloMosaic.ValueIdx
open Cert.ReferenceIdeal Cert.ReferenceIdeal.Gen Cert.Quant

/-! ## The two products -/

theorem dg1_l0 (j : S8x8192x2048.Idx) (q : dot_S8x8192x512_S2048x512_S8x8192x2048_2_1_01_0_n_n.contr.Idx) : (dot_S8x8192x512_S2048x512_S8x8192x2048_2_1_01_0_n_n.lhsIdx j q 0).val = (j 0).val := by
  unfold DotDims.lhsIdx
  rw [dif_neg (show ¬(0 : Fin S8x8192x512.rank) ∈ dot_S8x8192x512_S2048x512_S8x8192x2048_2_1_01_0_n_n.lhsBatch by decide), dif_pos (show (0 : Fin S8x8192x512.rank) ∈ dot_S8x8192x512_S2048x512_S8x8192x2048_2_1_01_0_n_n.lhsNonContracting by decide)]
  rfl
theorem dg1_l1 (j : S8x8192x2048.Idx) (q : dot_S8x8192x512_S2048x512_S8x8192x2048_2_1_01_0_n_n.contr.Idx) : (dot_S8x8192x512_S2048x512_S8x8192x2048_2_1_01_0_n_n.lhsIdx j q 1).val = (j 1).val := by
  unfold DotDims.lhsIdx
  rw [dif_neg (show ¬(1 : Fin S8x8192x512.rank) ∈ dot_S8x8192x512_S2048x512_S8x8192x2048_2_1_01_0_n_n.lhsBatch by decide), dif_pos (show (1 : Fin S8x8192x512.rank) ∈ dot_S8x8192x512_S2048x512_S8x8192x2048_2_1_01_0_n_n.lhsNonContracting by decide)]
  rfl
theorem dg1_l2 (j : S8x8192x2048.Idx) (q : dot_S8x8192x512_S2048x512_S8x8192x2048_2_1_01_0_n_n.contr.Idx) : (dot_S8x8192x512_S2048x512_S8x8192x2048_2_1_01_0_n_n.lhsIdx j q 2).val = (q ⟨0, by decide⟩).val :=
  dot_S8x8192x512_S2048x512_S8x8192x2048_2_1_01_0_n_n.lhsIdx_val_of_single rfl j q
theorem dg1_r0 (j : S8x8192x2048.Idx) (q : dot_S8x8192x512_S2048x512_S8x8192x2048_2_1_01_0_n_n.contr.Idx) : (dot_S8x8192x512_S2048x512_S8x8192x2048_2_1_01_0_n_n.rhsIdx j q 0).val = (j 2).val := by
  unfold DotDims.rhsIdx
  rw [dif_neg (show ¬(0 : Fin S2048x512.rank) ∈ dot_S8x8192x512_S2048x512_S8x8192x2048_2_1_01_0_n_n.rhsBatch by decide), dif_pos (show (0 : Fin S2048x512.rank) ∈ dot_S8x8192x512_S2048x512_S8x8192x2048_2_1_01_0_n_n.rhsNonContracting by decide)]
  rfl
theorem dg1_r1 (j : S8x8192x2048.Idx) (q : dot_S8x8192x512_S2048x512_S8x8192x2048_2_1_01_0_n_n.contr.Idx) : (dot_S8x8192x512_S2048x512_S8x8192x2048_2_1_01_0_n_n.rhsIdx j q 1).val = (q ⟨0, by decide⟩).val :=
  dot_S8x8192x512_S2048x512_S8x8192x2048_2_1_01_0_n_n.rhsIdx_val_of_single rfl j q

/-- The first product at (b, s, f): row (b, s) of the left operand against row f of the right one. -/
theorem dg1_apply (l : FVec Ideal S8x8192x512 .f32) (r : FVec Ideal S2048x512 .f32) (b : Fin 8) (s : Fin 8192) (f : Fin 2048) :
    Host.dotGeneral dot_S8x8192x512_S2048x512_S8x8192x2048_2_1_01_0_n_n none l r (ix3 b s f) = ∑ k : Fin 512, l (ix3 b s k) * r (ix2 f k) := by
  simp only [Host.dotGeneral]
  rw [Ideal.dotGeneral_apply, ← Equiv.sum_comp (contrEquiv1 dot_S8x8192x512_S2048x512_S8x8192x2048_2_1_01_0_n_n 512 rfl rfl).symm]
  refine Finset.sum_congr rfl fun k _ => ?_
  have hk := contrEquiv1_symm_val dot_S8x8192x512_S2048x512_S8x8192x2048_2_1_01_0_n_n 512 rfl rfl k
  have el : dot_S8x8192x512_S2048x512_S8x8192x2048_2_1_01_0_n_n.lhsIdx (ix3 b s f) ((contrEquiv1 dot_S8x8192x512_S2048x512_S8x8192x2048_2_1_01_0_n_n 512 rfl rfl).symm k) = ix3 b s k := funext fun a => Fin.ext (by
    match a with
    | ⟨0, _⟩ => exact dg1_l0 _ _
    | ⟨1, _⟩ => exact dg1_l1 _ _
    | ⟨2, _⟩ => exact (dg1_l2 _ _).trans hk)
  have er : dot_S8x8192x512_S2048x512_S8x8192x2048_2_1_01_0_n_n.rhsIdx (ix3 b s f) ((contrEquiv1 dot_S8x8192x512_S2048x512_S8x8192x2048_2_1_01_0_n_n 512 rfl rfl).symm k) = ix2 f k := funext fun a => Fin.ext (by
    match a with
    | ⟨0, _⟩ => exact dg1_r0 _ _
    | ⟨1, _⟩ => exact (dg1_r1 _ _).trans hk)
  rw [el, er]

theorem dg2_l0 (j : S8x8192x512.Idx) (q : dot_S8x8192x2048_S512x2048_S8x8192x512_2_1_01_0_n_n.contr.Idx) : (dot_S8x8192x2048_S512x2048_S8x8192x512_2_1_01_0_n_n.lhsIdx j q 0).val = (j 0).val := by
  unfold DotDims.lhsIdx
  rw [dif_neg (show ¬(0 : Fin S8x8192x2048.rank) ∈ dot_S8x8192x2048_S512x2048_S8x8192x512_2_1_01_0_n_n.lhsBatch by decide), dif_pos (show (0 : Fin S8x8192x2048.rank) ∈ dot_S8x8192x2048_S512x2048_S8x8192x512_2_1_01_0_n_n.lhsNonContracting by decide)]
  rfl
theorem dg2_l1 (j : S8x8192x512.Idx) (q : dot_S8x8192x2048_S512x2048_S8x8192x512_2_1_01_0_n_n.contr.Idx) : (dot_S8x8192x2048_S512x2048_S8x8192x512_2_1_01_0_n_n.lhsIdx j q 1).val = (j 1).val := by
  unfold DotDims.lhsIdx
  rw [dif_neg (show ¬(1 : Fin S8x8192x2048.rank) ∈ dot_S8x8192x2048_S512x2048_S8x8192x512_2_1_01_0_n_n.lhsBatch by decide), dif_pos (show (1 : Fin S8x8192x2048.rank) ∈ dot_S8x8192x2048_S512x2048_S8x8192x512_2_1_01_0_n_n.lhsNonContracting by decide)]
  rfl
theorem dg2_l2 (j : S8x8192x512.Idx) (q : dot_S8x8192x2048_S512x2048_S8x8192x512_2_1_01_0_n_n.contr.Idx) : (dot_S8x8192x2048_S512x2048_S8x8192x512_2_1_01_0_n_n.lhsIdx j q 2).val = (q ⟨0, by decide⟩).val :=
  dot_S8x8192x2048_S512x2048_S8x8192x512_2_1_01_0_n_n.lhsIdx_val_of_single rfl j q
theorem dg2_r0 (j : S8x8192x512.Idx) (q : dot_S8x8192x2048_S512x2048_S8x8192x512_2_1_01_0_n_n.contr.Idx) : (dot_S8x8192x2048_S512x2048_S8x8192x512_2_1_01_0_n_n.rhsIdx j q 0).val = (j 2).val := by
  unfold DotDims.rhsIdx
  rw [dif_neg (show ¬(0 : Fin S512x2048.rank) ∈ dot_S8x8192x2048_S512x2048_S8x8192x512_2_1_01_0_n_n.rhsBatch by decide), dif_pos (show (0 : Fin S512x2048.rank) ∈ dot_S8x8192x2048_S512x2048_S8x8192x512_2_1_01_0_n_n.rhsNonContracting by decide)]
  rfl
theorem dg2_r1 (j : S8x8192x512.Idx) (q : dot_S8x8192x2048_S512x2048_S8x8192x512_2_1_01_0_n_n.contr.Idx) : (dot_S8x8192x2048_S512x2048_S8x8192x512_2_1_01_0_n_n.rhsIdx j q 1).val = (q ⟨0, by decide⟩).val :=
  dot_S8x8192x2048_S512x2048_S8x8192x512_2_1_01_0_n_n.rhsIdx_val_of_single rfl j q

/-- The second product at (b, s, d): row (b, s) of the left operand against row d of the right one. -/
theorem dg2_apply (l : FVec Ideal S8x8192x2048 .f32) (r : FVec Ideal S512x2048 .f32) (b : Fin 8) (s : Fin 8192) (f : Fin 512) :
    Host.dotGeneral dot_S8x8192x2048_S512x2048_S8x8192x512_2_1_01_0_n_n none l r (ix3 b s f) = ∑ k : Fin 2048, l (ix3 b s k) * r (ix2 f k) := by
  simp only [Host.dotGeneral]
  rw [Ideal.dotGeneral_apply, ← Equiv.sum_comp (contrEquiv1 dot_S8x8192x2048_S512x2048_S8x8192x512_2_1_01_0_n_n 2048 rfl rfl).symm]
  refine Finset.sum_congr rfl fun k _ => ?_
  have hk := contrEquiv1_symm_val dot_S8x8192x2048_S512x2048_S8x8192x512_2_1_01_0_n_n 2048 rfl rfl k
  have el : dot_S8x8192x2048_S512x2048_S8x8192x512_2_1_01_0_n_n.lhsIdx (ix3 b s f) ((contrEquiv1 dot_S8x8192x2048_S512x2048_S8x8192x512_2_1_01_0_n_n 2048 rfl rfl).symm k) = ix3 b s k := funext fun a => Fin.ext (by
    match a with
    | ⟨0, _⟩ => exact dg2_l0 _ _
    | ⟨1, _⟩ => exact dg2_l1 _ _
    | ⟨2, _⟩ => exact (dg2_l2 _ _).trans hk)
  have er : dot_S8x8192x2048_S512x2048_S8x8192x512_2_1_01_0_n_n.rhsIdx (ix3 b s f) ((contrEquiv1 dot_S8x8192x2048_S512x2048_S8x8192x512_2_1_01_0_n_n 2048 rfl rfl).symm k) = ix2 f k := funext fun a => Fin.ext (by
    match a with
    | ⟨0, _⟩ => exact dg2_r0 _ _
    | ⟨1, _⟩ => exact (dg2_r1 _ _).trans hk)
  rw [el, er]

/-! ## The stages at an index -/

theorem steArr_apply {s : Shape} (a q : FVec Ideal s .f32) (j : s.Idx) : steArr a q j = ste (a j) (q j) := rfl

theorem upW_apply (w : FVec Ideal S2048x512 .f32) (j : S2048x512.Idx) : upW w j = ste (w j) (tQuant w j) := by
  unfold upW; rw [steArr_apply, wq_apply]

theorem downW_apply (w : FVec Ideal S512x2048 .f32) (j : S512x2048.Idx) : downW w j = ste (w j) (tQuant w j) := by
  unfold downW; rw [steArr_apply, wq_apply]

theorem inQ_apply (x : FVec Ideal S8x8192x512 .f32) (b : Fin 8) (s : Fin 8192) (i : Fin 512) :
    inQ x (ix3 b s i) = ste (x (ix3 b s i)) (rowQ (fun k : Fin 512 => x (ix3 b s k)) i) := by
  unfold inQ
  rw [steArr_apply, rq_apply x _ _ _ _ _ (by decide) _ b s i]

theorem hidQ_apply (y : FVec Ideal S8x8192x2048 .f32) (b : Fin 8) (s : Fin 8192) (f : Fin 2048) :
    hidQ y (ix3 b s f) = ste (y (ix3 b s f)) (rowQ (fun k : Fin 2048 => y (ix3 b s k)) f) := by
  unfold hidQ
  rw [steArr_apply, rq_apply y _ _ _ _ _ (by decide) _ b s f]

theorem pre_apply (a : FVec Ideal S8x8192x512 .f32) (u : FVec Ideal S2048x512 .f32) (b : Fin 8) (s : Fin 8192) (f : Fin 2048) :
    pre a u (ix3 b s f) = max (∑ i : Fin 512, a (ix3 b s i) * u (ix2 f i)) cZero := by
  unfold pre
  rw [hrelu_apply, dg1_apply]

theorem hid_apply (a : FVec Ideal S8x8192x512 .f32) (u : FVec Ideal S2048x512 .f32) (b : Fin 8) (s : Fin 8192) (f : Fin 2048) :
    hid a u (ix3 b s f) = (fun r => ste r (clip8 (rnd r))) (max (∑ i : Fin 512, a (ix3 b s i) * u (ix2 f i)) cZero) := by
  unfold hid
  rw [steArr_apply, hclip_apply, pre_apply]

/-! ## The result at an index -/

/-- The reference's result at (b, s, d): the straight-through row form of row (b, s). -/
theorem ref_apply (x : FVec Ideal S8x8192x512 .f32) (u : FVec Ideal S2048x512 .f32) (dn : FVec Ideal S512x2048 .f32)
    (b : Fin 8) (s : Fin 8192) (d : Fin 512) :
    Host.dotGeneral dot_S8x8192x2048_S512x2048_S8x8192x512_2_1_01_0_n_n none (hidQ (hid (inQ x) (upW u))) (downW dn) (ix3 b s d)
      = outRowSte (fun i : Fin 512 => x (ix3 b s i)) (fun (f : Fin 2048) (i : Fin 512) => u (ix2 f i))
          (fun (f : Fin 2048) (i : Fin 512) => tQuant u (ix2 f i)) (fun (d' : Fin 512) (f : Fin 2048) => dn (ix2 d' f))
          (fun (d' : Fin 512) (f : Fin 2048) => tQuant dn (ix2 d' f)) d := by
  rw [dg2_apply]
  unfold outRowSte
  refine Finset.sum_congr rfl fun f _ => ?_
  rw [hidQ_apply, downW_apply]
  simp only [hid_apply, inQ_apply, upW_apply]

end Cert.ReferenceIdeal.RefValue

end
-- ==== Proof.RefPlain.lean ====
/-
  The reference's operations with every operation of a called function stated at its buffers.

  An operation of a function the reference calls is stated at the type of the value it computes and carried to the
  types the program's table gives its buffers; looked up in the table those are the same types, so the operation is
  the plain operation on its buffers. Here are the six lists of operations in that plain spelling, and that each is
  the corresponding list of the program: operation by operation the transports are identities by computation.
-/
import proofs.«155871_j83803401879881_1_alg».proof.Proof.RefStages

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- Operations 1-23, each at its buffers. -/
abbrev pA : List (HloOp τ sig (Elt F)) :=
  [ unary main_arg1 main_v0 (Host.absf : (⟨S2048x512, .f32⟩ : BufTy).Contents (Elt F) → (⟨S2048x512, .f32⟩ : BufTy).Contents (Elt F)),
    nullary main_cst (constant S_ .f32 0x00000000#32),
    binary main_v0 main_cst main_v1 ((fun x v => Host.reduceAdd x v reducesTo_S2048x512_S_d0_1 h_S_) : (⟨S2048x512, .f32⟩ : BufTy).Contents (Elt F) → (⟨S_, .f32⟩ : BufTy).Contents (Elt F) → (⟨S_, .f32⟩ : BufTy).Contents (Elt F)),
    nullary main_cst_0 (constant S_ .f32 0x49800000#32),
    binary main_v1 main_cst_0 main_v2 (Host.divf : (⟨S_, .f32⟩ : BufTy).Contents (Elt F) → (⟨S_, .f32⟩ : BufTy).Contents (Elt F) → (⟨S_, .f32⟩ : BufTy).Contents (Elt F)),
    nullary main_cst_1 (constant S_ .f32 0x3727C5AC#32),
    unary main_cst_1 main_call0_v0 (id : (⟨S_, .f32⟩ : BufTy).Contents (Elt F) → (⟨S_, .f32⟩ : BufTy).Contents (Elt F)),
    binary main_call0_v0 main_v2 main_v3 (maximumf : (⟨S_, .f32⟩ : BufTy).Contents (Elt F) → (⟨S_, .f32⟩ : BufTy).Contents (Elt F) → (⟨S_, .f32⟩ : BufTy).Contents (Elt F)),
    unary main_v3 main_v4 (broadcastInDim S2048x512 ![] bcast_S_S2048x512 : (⟨S_, .f32⟩ : BufTy).Contents (Elt F) → (⟨S2048x512, .f32⟩ : BufTy).Contents (Elt F)),
    binary main_arg1 main_v4 main_v5 (Host.divf : (⟨S2048x512, .f32⟩ : BufTy).Contents (Elt F) → (⟨S2048x512, .f32⟩ : BufTy).Contents (Elt F) → (⟨S2048x512, .f32⟩ : BufTy).Contents (Elt F)),
    unary main_v5 main_v6 (Host.roundeven : (⟨S2048x512, .f32⟩ : BufTy).Contents (Elt F) → (⟨S2048x512, .f32⟩ : BufTy).Contents (Elt F)),
    nullary main_cst_2 (constant S_ .f32 0xBF800000#32),
    nullary main_cst_3 (constant S_ .f32 0x3F800000#32),
    unary main_cst_2 main_call2_v0 (id : (⟨S_, .f32⟩ : BufTy).Contents (Elt F) → (⟨S_, .f32⟩ : BufTy).Contents (Elt F)),
    unary main_call2_v0 main_call2_v1 ((broadcastInDim S2048x512 ![] bcast_S_S2048x512) : (⟨S_, .f32⟩ : BufTy).Contents (Elt F) → (⟨S2048x512, .f32⟩ : BufTy).Contents (Elt F)),
    binary main_call2_v1 main_v6 main_call2_v2 (maximumf : (⟨S2048x512, .f32⟩ : BufTy).Contents (Elt F) → (⟨S2048x512, .f32⟩ : BufTy).Contents (Elt F) → (⟨S2048x512, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 ((broadcastInDim S2048x512 ![] bcast_S_S2048x512) : (⟨S_, .f32⟩ : BufTy).Contents (Elt F) → (⟨S2048x512, .f32⟩ : BufTy).Contents (Elt F)),
    binary main_call2_v4 main_call2_v2 main_v7 (minimumf : (⟨S2048x512, .f32⟩ : BufTy).Contents (Elt F) → (⟨S2048x512, .f32⟩ : BufTy).Contents (Elt F) → (⟨S2048x512, .f32⟩ : BufTy).Contents (Elt F)),
    unary main_v3 main_v8 (broadcastInDim S2048x512 ![] bcast_S_S2048x512 : (⟨S_, .f32⟩ : BufTy).Contents (Elt F) → (⟨S2048x512, .f32⟩ : BufTy).Contents (Elt F)),
    binary main_v7 main_v8 main_v9 (mulf : (⟨S2048x512, .f32⟩ : BufTy).Contents (Elt F) → (⟨S2048x512, .f32⟩ : BufTy).Contents (Elt F) → (⟨S2048x512, .f32⟩ : BufTy).Contents (Elt F)),
    binary main_v9 main_arg1 main_v10 (subf : (⟨S2048x512, .f32⟩ : BufTy).Contents (Elt F) → (⟨S2048x512, .f32⟩ : BufTy).Contents (Elt F) → (⟨S2048x512, .f32⟩ : BufTy).Contents (Elt F)),
    binary main_arg1 main_v10 main_v11 (addf : (⟨S2048x512, .f32⟩ : BufTy).Contents (Elt F) → (⟨S2048x512, .f32⟩ : BufTy).Contents (Elt F) → (⟨S2048x512, .f32⟩ : BufTy).Contents (Elt F)) ]

/-- Operations 24-49, each at its buffers. -/
abbrev pB : List (HloOp τ sig (Elt F)) :=
  [ unary main_arg0 main_v12 (Host.absf : (⟨S8x8192x512, .f32⟩ : BufTy).Contents (Elt F) → (⟨S8x8192x512, .f32⟩ : BufTy).Contents (Elt F)),
    nullary main_cst_4 (constant S_ .f32 0xFF800000#32),
    binary main_v12 main_cst_4 main_v13 ((fun x v => Host.reduce FloatOps.maximumf x v reducesTo_S8x8192x512_S8x8192_d2 h_S_) : (⟨S8x8192x512, .f32⟩ : BufTy).Contents (Elt F) → (⟨S_, .f32⟩ : BufTy).Contents (Elt F) → (⟨S8x8192, .f32⟩ : BufTy).Contents (Elt F)),
    unary main_v13 main_v14 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_5 (constant S_ .f32 0x3727C5AC#32),
    unary main_cst_5 main_call3_v0 (id : (⟨S_, .f32⟩ : BufTy).Contents (Elt F) → (⟨S_, .f32⟩ : BufTy).Contents (Elt F)),
    unary main_call3_v0 main_call3_v1 ((broadcastInDim S8x8192x1 ![] bcast_S_S8x8192x1) : (⟨S_, .f32⟩ : BufTy).Contents (Elt F) → (⟨S8x8192x1, .f32⟩ : BufTy).Contents (Elt F)),
    binary main_call3_v1 main_v14 main_v15 (maximumf : (⟨S8x8192x1, .f32⟩ : BufTy).Contents (Elt F) → (⟨S8x8192x1, .f32⟩ : BufTy).Contents (Elt F) → (⟨S8x8192x1, .f32⟩ : BufTy).Contents (Elt F)),
    nullary main_cst_6 (constant S_ .f32 0x42FE0000#32),
    unary main_cst_6 main_v16 (broadcastInDim S8x8192x1 ![] bcast_S_S8x8192x1 : (⟨S_, .f32⟩ : BufTy).Contents (Elt F) → (⟨S8x8192x1, .f32⟩ : BufTy).Contents (Elt F)),
    binary main_v16 main_v15 main_v17 (Host.divf : (⟨S8x8192x1, .f32⟩ : BufTy).Contents (Elt F) → (⟨S8x8192x1, .f32⟩ : BufTy).Contents (Elt F) → (⟨S8x8192x1, .f32⟩ : BufTy).Contents (Elt F)),
    unary main_v17 main_v18 (broadcastInDim S8x8192x512 ![0, 1, 2] bcast_S8x8192x1_S8x8192x512_0_1_2 : (⟨S8x8192x1, .f32⟩ : BufTy).Contents (Elt F) → (⟨S8x8192x512, .f32⟩ : BufTy).Contents (Elt F)),
    binary main_arg0 main_v18 main_v19 (mulf : (⟨S8x8192x512, .f32⟩ : BufTy).Contents (Elt F) → (⟨S8x8192x512, .f32⟩ : BufTy).Contents (Elt F) → (⟨S8x8192x512, .f32⟩ : BufTy).Contents (Elt F)),
    unary main_v19 main_v20 (Host.roundeven : (⟨S8x8192x512, .f32⟩ : BufTy).Contents (Elt F) → (⟨S8x8192x512, .f32⟩ : BufTy).Contents (Elt F)),
    nullary main_cst_7 (constant S_ .f32 0xC3000000#32),
    nullary main_cst_8 (constant S_ .f32 0x42FE0000#32),
    unary main_cst_7 main_call5_v0 (id : (⟨S_, .f32⟩ : BufTy).Contents (Elt F) → (⟨S_, .f32⟩ : BufTy).Contents (Elt F)),
    unary main_call5_v0 main_call5_v1 ((broadcastInDim S8x8192x512 ![] bcast_S_S8x8192x512) : (⟨S_, .f32⟩ : BufTy).Contents (Elt F) → (⟨S8x8192x512, .f32⟩ : BufTy).Contents (Elt F)),
    binary main_call5_v1 main_v20 main_call5_v2 (maximumf : (⟨S8x8192x512, .f32⟩ : BufTy).Contents (Elt F) → (⟨S8x8192x512, .f32⟩ : BufTy).Contents (Elt F) → (⟨S8x8192x512, .f32⟩ : BufTy).Contents (Elt F)),
    unary main_cst_8 main_call5_v3 (id : (⟨S_, .f32⟩ : BufTy).Contents (Elt F) → (⟨S_, .f32⟩ : BufTy).Contents (Elt F)),
    unary main_call5_v3 main_call5_v4 ((broadcastInDim S8x8192x512 ![] bcast_S_S8x8192x512) : (⟨S_, .f32⟩ : BufTy).Contents (Elt F) → (⟨S8x8192x512, .f32⟩ : BufTy).Contents (Elt F)),
    binary main_call5_v4 main_call5_v2 main_v21 (minimumf : (⟨S8x8192x512, .f32⟩ : BufTy).Contents (Elt F) → (⟨S8x8192x512, .f32⟩ : BufTy).Contents (Elt F) → (⟨S8x8192x512, .f32⟩ : BufTy).Contents (Elt F)),
    unary main_v17 main_v22 (broadcastInDim S8x8192x512 ![0, 1, 2] bcast_S8x8192x1_S8x8192x512_0_1_2 : (⟨S8x8192x1, .f32⟩ : BufTy).Contents (Elt F) → (⟨S8x8192x512, .f32⟩ : BufTy).Contents (Elt F)),
    binary main_v21 main_v22 main_v23 (Host.divf : (⟨S8x8192x512, .f32⟩ : BufTy).Contents (Elt F) → (⟨S8x8192x512, .f32⟩ : BufTy).Contents (Elt F) → (⟨S8x8192x512, .f32⟩ : BufTy).Contents (Elt F)),
    binary main_v23 main_arg0 main_v24 (subf : (⟨S8x8192x512, .f32⟩ : BufTy).Contents (Elt F) → (⟨S8x8192x512, .f32⟩ : BufTy).Contents (Elt F) → (⟨S8x8192x512, .f32⟩ : BufTy).Contents (Elt F)),
    binary main_arg0 main_v24 main_v25 (addf : (⟨S8x8192x512, .f32⟩ : BufTy).Contents (Elt F) → (⟨S8x8192x512, .f32⟩ : BufTy).Contents (Elt F) → (⟨S8x8192x512, .f32⟩ : BufTy).Contents (Elt F)) ]

/-- Operations 50-64, each at its buffers. -/
abbrev pC : List (HloOp τ sig (Elt F)) :=
  [ binary main_v25 main_v11 main_v26 ((fun l r => Host.dotGeneral dot_S8x8192x512_S2048x512_S8x8192x2048_2_1_01_0_n_n none l r) : (⟨S8x8192x512, .f32⟩ : BufTy).Contents (Elt F) → (⟨S2048x512, .f32⟩ : BufTy).Contents (Elt F) → (⟨S8x8192x2048, .f32⟩ : BufTy).Contents (Elt F)),
    nullary main_call6_cst ((constant S_ .f32 0x00000000#32) : (⟨S_, .f32⟩ : BufTy).Contents (Elt F)),
    unary main_call6_cst main_call6_v0 ((broadcastInDim S8x8192x2048 ![] bcast_S_S8x8192x2048) : (⟨S_, .f32⟩ : BufTy).Contents (Elt F) → (⟨S8x8192x2048, .f32⟩ : BufTy).Contents (Elt F)),
    binary main_v26 main_call6_v0 main_v27 (maximumf : (⟨S8x8192x2048, .f32⟩ : BufTy).Contents (Elt F) → (⟨S8x8192x2048, .f32⟩ : BufTy).Contents (Elt F) → (⟨S8x8192x2048, .f32⟩ : BufTy).Contents (Elt F)),
    unary main_v27 main_v28 (Host.roundeven : (⟨S8x8192x2048, .f32⟩ : BufTy).Contents (Elt F) → (⟨S8x8192x2048, .f32⟩ : BufTy).Contents (Elt F)),
    nullary main_cst_9 (constant S_ .f32 0xC3000000#32),
    nullary main_cst_10 (constant S_ .f32 0x42FE0000#32),
    unary main_cst_9 main_call8_v0 (id : (⟨S_, .f32⟩ : BufTy).Contents (Elt F) → (⟨S_, .f32⟩ : BufTy).Contents (Elt F)),
    unary main_call8_v0 main_call8_v1 ((broadcastInDim S8x8192x2048 ![] bcast_S_S8x8192x2048) : (⟨S_, .f32⟩ : BufTy).Contents (Elt F) → (⟨S8x8192x2048, .f32⟩ : BufTy).Contents (Elt F)),
    binary main_call8_v1 main_v28 main_call8_v2 (maximumf : (⟨S8x8192x2048, .f32⟩ : BufTy).Contents (Elt F) → (⟨S8x8192x2048, .f32⟩ : BufTy).Contents (Elt F) → (⟨S8x8192x2048, .f32⟩ : BufTy).Contents (Elt F)),
    unary main_cst_10 main_call8_v3 (id : (⟨S_, .f32⟩ : BufTy).Contents (Elt F) → (⟨S_, .f32⟩ : BufTy).Contents (Elt F)),
    unary main_call8_v3 main_call8_v4 ((broadcastInDim S8x8192x2048 ![] bcast_S_S8x8192x2048) : (⟨S_, .f32⟩ : BufTy).Contents (Elt F) → (⟨S8x8192x2048, .f32⟩ : BufTy).Contents (Elt F)),
    binary main_call8_v4 main_call8_v2 main_v29 (minimumf : (⟨S8x8192x2048, .f32⟩ : BufTy).Contents (Elt F) → (⟨S8x8192x2048, .f32⟩ : BufTy).Contents (Elt F) → (⟨S8x8192x2048, .f32⟩ : BufTy).Contents (Elt F)),
    binary main_v29 main_v27 main_v30 (subf : (⟨S8x8192x2048, .f32⟩ : BufTy).Contents (Elt F) → (⟨S8x8192x2048, .f32⟩ : BufTy).Contents (Elt F) → (⟨S8x8192x2048, .f32⟩ : BufTy).Contents (Elt F)),
    binary main_v27 main_v30 main_v31 (addf : (⟨S8x8192x2048, .f32⟩ : BufTy).Contents (Elt F) → (⟨S8x8192x2048, .f32⟩ : BufTy).Contents (Elt F) → (⟨S8x8192x2048, .f32⟩ : BufTy).Contents (Elt F)) ]

/-- Operations 65-87, each at its buffers. -/
abbrev pD : List (HloOp τ sig (Elt F)) :=
  [ unary main_arg2 main_v32 (Host.absf : (⟨S512x2048, .f32⟩ : BufTy).Contents (Elt F) → (⟨S512x2048, .f32⟩ : BufTy).Contents (Elt F)),
    nullary main_cst_11 (constant S_ .f32 0x00000000#32),
    binary main_v32 main_cst_11 main_v33 ((fun x v => Host.reduceAdd x v reducesTo_S512x2048_S_d0_1 h_S_) : (⟨S512x2048, .f32⟩ : BufTy).Contents (Elt F) → (⟨S_, .f32⟩ : BufTy).Contents (Elt F) → (⟨S_, .f32⟩ : BufTy).Contents (Elt F)),
    nullary main_cst_12 (constant S_ .f32 0x49800000#32),
    binary main_v33 main_cst_12 main_v34 (Host.divf : (⟨S_, .f32⟩ : BufTy).Contents (Elt F) → (⟨S_, .f32⟩ : BufTy).Contents (Elt F) → (⟨S_, .f32⟩ : BufTy).Contents (Elt F)),
    nullary main_cst_13 (constant S_ .f32 0x3727C5AC#32),
    unary main_cst_13 main_call9_v0 (id : (⟨S_, .f32⟩ : BufTy).Contents (Elt F) → (⟨S_, .f32⟩ : BufTy).Contents (Elt F)),
    binary main_call9_v0 main_v34 main_v35 (maximumf : (⟨S_, .f32⟩ : BufTy).Contents (Elt F) → (⟨S_, .f32⟩ : BufTy).Contents (Elt F) → (⟨S_, .f32⟩ : BufTy).Contents (Elt F)),
    unary main_v35 main_v36 (broadcastInDim S512x2048 ![] bcast_S_S512x2048 : (⟨S_, .f32⟩ : BufTy).Contents (Elt F) → (⟨S512x2048, .f32⟩ : BufTy).Contents (Elt F)),
    binary main_arg2 main_v36 main_v37 (Host.divf : (⟨S512x2048, .f32⟩ : BufTy).Contents (Elt F) → (⟨S512x2048, .f32⟩ : BufTy).Contents (Elt F) → (⟨S512x2048, .f32⟩ : BufTy).Contents (Elt F)),
    unary main_v37 main_v38 (Host.roundeven : (⟨S512x2048, .f32⟩ : BufTy).Contents (Elt F) → (⟨S512x2048, .f32⟩ : BufTy).Contents (Elt F)),
    nullary main_cst_14 (constant S_ .f32 0xBF800000#32),
    nullary main_cst_15 (constant S_ .f32 0x3F800000#32),
    unary main_cst_14 main_call11_v0 (id : (⟨S_, .f32⟩ : BufTy).Contents (Elt F) → (⟨S_, .f32⟩ : BufTy).Contents (Elt F)),
    unary main_call11_v0 main_call11_v1 ((broadcastInDim S512x2048 ![] bcast_S_S512x2048) : (⟨S_, .f32⟩ : BufTy).Contents (Elt F) → (⟨S512x2048, .f32⟩ : BufTy).Contents (Elt F)),
    binary main_call11_v1 main_v38 main_call11_v2 (maximumf : (⟨S512x2048, .f32⟩ : BufTy).Contents (Elt F) → (⟨S512x2048, .f32⟩ : BufTy).Contents (Elt F) → (⟨S512x2048, .f32⟩ : BufTy).Contents (Elt F)),
    unary main_cst_15 main_call11_v3 (id : (⟨S_, .f32⟩ : BufTy).Contents (Elt F) → (⟨S_, .f32⟩ : BufTy).Contents (Elt F)),
    unary main_call11_v3 main_call11_v4 ((broadcastInDim S512x2048 ![] bcast_S_S512x2048) : (⟨S_, .f32⟩ : BufTy).Contents (Elt F) → (⟨S512x2048, .f32⟩ : BufTy).Contents (Elt F)),
    binary main_call11_v4 main_call11_v2 main_v39 (minimumf : (⟨S512x2048, .f32⟩ : BufTy).Contents (Elt F) → (⟨S512x2048, .f32⟩ : BufTy).Contents (Elt F) → (⟨S512x2048, .f32⟩ : BufTy).Contents (Elt F)),
    unary main_v35 main_v40 (broadcastInDim S512x2048 ![] bcast_S_S512x2048 : (⟨S_, .f32⟩ : BufTy).Contents (Elt F) → (⟨S512x2048, .f32⟩ : BufTy).Contents (Elt F)),
    binary main_v39 main_v40 main_v41 (mulf : (⟨S512x2048, .f32⟩ : BufTy).Contents (Elt F) → (⟨S512x2048, .f32⟩ : BufTy).Contents (Elt F) → (⟨S512x2048, .f32⟩ : BufTy).Contents (Elt F)),
    binary main_v41 main_arg2 main_v42 (subf : (⟨S512x2048, .f32⟩ : BufTy).Contents (Elt F) → (⟨S512x2048, .f32⟩ : BufTy).Contents (Elt F) → (⟨S512x2048, .f32⟩ : BufTy).Contents (Elt F)),
    binary main_arg2 main_v42 main_v43 (addf : (⟨S512x2048, .f32⟩ : BufTy).Contents (Elt F) → (⟨S512x2048, .f32⟩ : BufTy).Contents (Elt F) → (⟨S512x2048, .f32⟩ : BufTy).Contents (Elt F)) ]

/-- Operations 88-113, each at its buffers. -/
abbrev pE : List (HloOp τ sig (Elt F)) :=
  [ unary main_v31 main_v44 (Host.absf : (⟨S8x8192x2048, .f32⟩ : BufTy).Contents (Elt F) → (⟨S8x8192x2048, .f32⟩ : BufTy).Contents (Elt F)),
    nullary main_cst_16 (constant S_ .f32 0xFF800000#32),
    binary main_v44 main_cst_16 main_v45 ((fun x v => Host.reduce FloatOps.maximumf x v reducesTo_S8x8192x2048_S8x8192_d2 h_S_) : (⟨S8x8192x2048, .f32⟩ : BufTy).Contents (Elt F) → (⟨S_, .f32⟩ : BufTy).Contents (Elt F) → (⟨S8x8192, .f32⟩ : BufTy).Contents (Elt F)),
    unary main_v45 main_v46 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_17 (constant S_ .f32 0x3727C5AC#32),
    unary main_cst_17 main_call12_v0 (id : (⟨S_, .f32⟩ : BufTy).Contents (Elt F) → (⟨S_, .f32⟩ : BufTy).Contents (Elt F)),
    unary main_call12_v0 main_call12_v1 ((broadcastInDim S8x8192x1 ![] bcast_S_S8x8192x1) : (⟨S_, .f32⟩ : BufTy).Contents (Elt F) → (⟨S8x8192x1, .f32⟩ : BufTy).Contents (Elt F)),
    binary main_call12_v1 main_v46 main_v47 (maximumf : (⟨S8x8192x1, .f32⟩ : BufTy).Contents (Elt F) → (⟨S8x8192x1, .f32⟩ : BufTy).Contents (Elt F) → (⟨S8x8192x1, .f32⟩ : BufTy).Contents (Elt F)),
    nullary main_cst_18 (constant S_ .f32 0x42FE0000#32),
    unary main_cst_18 main_v48 (broadcastInDim S8x8192x1 ![] bcast_S_S8x8192x1 : (⟨S_, .f32⟩ : BufTy).Contents (Elt F) → (⟨S8x8192x1, .f32⟩ : BufTy).Contents (Elt F)),
    binary main_v48 main_v47 main_v49 (Host.divf : (⟨S8x8192x1, .f32⟩ : BufTy).Contents (Elt F) → (⟨S8x8192x1, .f32⟩ : BufTy).Contents (Elt F) → (⟨S8x8192x1, .f32⟩ : BufTy).Contents (Elt F)),
    unary main_v49 main_v50 (broadcastInDim S8x8192x2048 ![0, 1, 2] bcast_S8x8192x1_S8x8192x2048_0_1_2 : (⟨S8x8192x1, .f32⟩ : BufTy).Contents (Elt F) → (⟨S8x8192x2048, .f32⟩ : BufTy).Contents (Elt F)),
    binary main_v31 main_v50 main_v51 (mulf : (⟨S8x8192x2048, .f32⟩ : BufTy).Contents (Elt F) → (⟨S8x8192x2048, .f32⟩ : BufTy).Contents (Elt F) → (⟨S8x8192x2048, .f32⟩ : BufTy).Contents (Elt F)),
    unary main_v51 main_v52 (Host.roundeven : (⟨S8x8192x2048, .f32⟩ : BufTy).Contents (Elt F) → (⟨S8x8192x2048, .f32⟩ : BufTy).Contents (Elt F)),
    nullary main_cst_19 (constant S_ .f32 0xC3000000#32),
    nullary main_cst_20 (constant S_ .f32 0x42FE0000#32),
    unary main_cst_19 main_call14_v0 (id : (⟨S_, .f32⟩ : BufTy).Contents (Elt F) → (⟨S_, .f32⟩ : BufTy).Contents (Elt F)),
    unary main_call14_v0 main_call14_v1 ((broadcastInDim S8x8192x2048 ![] bcast_S_S8x8192x2048) : (⟨S_, .f32⟩ : BufTy).Contents (Elt F) → (⟨S8x8192x2048, .f32⟩ : BufTy).Contents (Elt F)),
    binary main_call14_v1 main_v52 main_call14_v2 (maximumf : (⟨S8x8192x2048, .f32⟩ : BufTy).Contents (Elt F) → (⟨S8x8192x2048, .f32⟩ : BufTy).Contents (Elt F) → (⟨S8x8192x2048, .f32⟩ : BufTy).Contents (Elt F)),
    unary main_cst_20 main_call14_v3 (id : (⟨S_, .f32⟩ : BufTy).Contents (Elt F) → (⟨S_, .f32⟩ : BufTy).Contents (Elt F)),
    unary main_call14_v3 main_call14_v4 ((broadcastInDim S8x8192x2048 ![] bcast_S_S8x8192x2048) : (⟨S_, .f32⟩ : BufTy).Contents (Elt F) → (⟨S8x8192x2048, .f32⟩ : BufTy).Contents (Elt F)),
    binary main_call14_v4 main_call14_v2 main_v53 (minimumf : (⟨S8x8192x2048, .f32⟩ : BufTy).Contents (Elt F) → (⟨S8x8192x2048, .f32⟩ : BufTy).Contents (Elt F) → (⟨S8x8192x2048, .f32⟩ : BufTy).Contents (Elt F)),
    unary main_v49 main_v54 (broadcastInDim S8x8192x2048 ![0, 1, 2] bcast_S8x8192x1_S8x8192x2048_0_1_2 : (⟨S8x8192x1, .f32⟩ : BufTy).Contents (Elt F) → (⟨S8x8192x2048, .f32⟩ : BufTy).Contents (Elt F)),
    binary main_v53 main_v54 main_v55 (Host.divf : (⟨S8x8192x2048, .f32⟩ : BufTy).Contents (Elt F) → (⟨S8x8192x2048, .f32⟩ : BufTy).Contents (Elt F) → (⟨S8x8192x2048, .f32⟩ : BufTy).Contents (Elt F)),
    binary main_v55 main_v31 main_v56 (subf : (⟨S8x8192x2048, .f32⟩ : BufTy).Contents (Elt F) → (⟨S8x8192x2048, .f32⟩ : BufTy).Contents (Elt F) → (⟨S8x8192x2048, .f32⟩ : BufTy).Contents (Elt F)),
    binary main_v31 main_v56 main_v57 (addf : (⟨S8x8192x2048, .f32⟩ : BufTy).Contents (Elt F) → (⟨S8x8192x2048, .f32⟩ : BufTy).Contents (Elt F) → (⟨S8x8192x2048, .f32⟩ : BufTy).Contents (Elt F)) ]

/-- Operations 114-114, each at its buffers. -/
abbrev pF : List (HloOp τ sig (Elt F)) :=
  [ binary main_v57 main_v43 main_v58 ((fun l r => Host.dotGeneral dot_S8x8192x2048_S512x2048_S8x8192x512_2_1_01_0_n_n none l r) : (⟨S8x8192x2048, .f32⟩ : BufTy).Contents (Elt F) → (⟨S512x2048, .f32⟩ : BufTy).Contents (Elt F) → (⟨S8x8192x512, .f32⟩ : BufTy).Contents (Elt F)) ]

theorem segA_eq : (segA (F := F)) = pA := rfl
theorem segB_eq : (segB (F := F)) = pB := rfl
theorem segC_eq : (segC (F := F)) = pC := rfl
theorem segD_eq : (segD (F := F)) = pD := rfl
theorem segE_eq : (segE (F := F)) = pE := rfl
theorem segF_eq : (segF (F := F)) = pF := rfl

end Cert.ReferenceIdeal.RefValue

end
-- ==== Proof.RefSegA.lean ====
/-
  Operations 1-23 of the reference: the first-layer weights quantised, straight through.
  Read off the list of operations (in the plain spelling) for any contents W of the buffers it starts from, together
  with the buffers it leaves as they were (the three arguments among them: no operation writes an argument).
-/
import proofs.«155871_j83803401879881_1_alg».proof.Proof.RefPlain

set_option Elab.async false

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

variable (W : Valuation τ sig (Elt Ideal))

set_option maxHeartbeats 1000000 in
theorem segA_out : (after (pA (F := Ideal)) W (Proc.devRef .tc main_v11) : S2048x512.Idx → EReal) = upW (W (Proc.devRef .tc main_arg1)) := by
  dsimp only [pA]
  after_results_simp
  simp only [id]
  unfold upW steArr wq
  with_reducible rfl
theorem segA_arg0 : after (pA (F := Ideal)) W (Proc.devRef .tc main_arg0) = W (Proc.devRef .tc main_arg0) := by
  dsimp only [pA]; after_results
theorem segA_arg1 : after (pA (F := Ideal)) W (Proc.devRef .tc main_arg1) = W (Proc.devRef .tc main_arg1) := by
  dsimp only [pA]; after_results
theorem segA_arg2 : after (pA (F := Ideal)) W (Proc.devRef .tc main_arg2) = W (Proc.devRef .tc main_arg2) := by
  dsimp only [pA]; after_results

end Cert.ReferenceIdeal.RefValue

end
-- ==== Proof.RefSegB.lean ====
/-
  Operations 24-49 of the reference: the input rows quantised, straight through.
  Read off the list of operations (in the plain spelling) for any contents W of the buffers it starts from, together
  with the buffers it leaves as they were (the three arguments among them: no operation writes an argument).
-/
import proofs.«155871_j83803401879881_1_alg».proof.Proof.RefPlain

set_option Elab.async false

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

variable (W : Valuation τ sig (Elt Ideal))

set_option maxHeartbeats 1000000 in
theorem segB_out : (after (pB (F := Ideal)) W (Proc.devRef .tc main_v25) : S8x8192x512.Idx → EReal) = inQ (W (Proc.devRef .tc main_arg0)) := by
  dsimp only [pB]
  after_results_simp
  simp only [id]
  unfold inQ steArr rq rscale
  with_reducible rfl
theorem segB_keep11 : after (pB (F := Ideal)) W (Proc.devRef .tc main_v11) = W (Proc.devRef .tc main_v11) := by
  dsimp only [pB]; after_results
theorem segB_arg0 : after (pB (F := Ideal)) W (Proc.devRef .tc main_arg0) = W (Proc.devRef .tc main_arg0) := by
  dsimp only [pB]; after_results
theorem segB_arg1 : after (pB (F := Ideal)) W (Proc.devRef .tc main_arg1) = W (Proc.devRef .tc main_arg1) := by
  dsimp only [pB]; after_results
theorem segB_arg2 : after (pB (F := Ideal)) W (Proc.devRef .tc main_arg2) = W (Proc.devRef .tc main_arg2) := by
  dsimp only [pB]; after_results

end Cert.ReferenceIdeal.RefValue

end
-- ==== Proof.RefSegC.lean ====
/-
  Operations 50-64 of the reference: the first product, rectified, rounded, clipped, straight through.
  Read off the list of operations (in the plain spelling) for any contents W of the buffers it starts from, together
  with the buffers it leaves as they were (the three arguments among them: no operation writes an argument).
-/
import proofs.«155871_j83803401879881_1_alg».proof.Proof.RefPlain

set_option Elab.async false

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

variable (W : Valuation τ sig (Elt Ideal))

set_option maxHeartbeats 1000000 in
theorem segC_out : (after (pC (F := Ideal)) W (Proc.devRef .tc main_v31) : S8x8192x2048.Idx → EReal)
    = hid (W (Proc.devRef .tc main_v25)) (W (Proc.devRef .tc main_v11)) := by
  dsimp only [pC]
  after_results_simp
  simp only [id]
  unfold hid pre steArr
  with_reducible rfl
theorem segC_arg0 : after (pC (F := Ideal)) W (Proc.devRef .tc main_arg0) = W (Proc.devRef .tc main_arg0) := by
  dsimp only [pC]; after_results
theorem segC_arg1 : after (pC (F := Ideal)) W (Proc.devRef .tc main_arg1) = W (Proc.devRef .tc main_arg1) := by
  dsimp only [pC]; after_results
theorem segC_arg2 : after (pC (F := Ideal)) W (Proc.devRef .tc main_arg2) = W (Proc.devRef .tc main_arg2) := by
  dsimp only [pC]; after_results

end Cert.ReferenceIdeal.RefValue

end
-- ==== Proof.RefSegD.lean ====
/-
  Operations 65-87 of the reference: the second-layer weights quantised, straight through.
  Read off the list of operations (in the plain spelling) for any contents W of the buffers it starts from, together
  with the buffers it leaves as they were (the three arguments among them: no operation writes an argument).
-/
import proofs.«155871_j83803401879881_1_alg».proof.Proof.RefPlain

set_option Elab.async false

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

variable (W : Valuation τ sig (Elt Ideal))

set_option maxHeartbeats 1000000 in
theorem segD_out : (after (pD (F := Ideal)) W (Proc.devRef .tc main_v43) : S512x2048.Idx → EReal) = downW (W (Proc.devRef .tc main_arg2)) := by
  dsimp only [pD]
  after_results_simp
  simp only [id]
  unfold downW steArr wq
  with_reducible rfl
theorem segD_keep31 : after (pD (F := Ideal)) W (Proc.devRef .tc main_v31) = W (Proc.devRef .tc main_v31) := by
  dsimp only [pD]; after_results
theorem segD_arg0 : after (pD (F := Ideal)) W (Proc.devRef .tc main_arg0) = W (Proc.devRef .tc main_arg0) := by
  dsimp only [pD]; after_results
theorem segD_arg1 : after (pD (F := Ideal)) W (Proc.devRef .tc main_arg1) = W (Proc.devRef .tc main_arg1) := by
  dsimp only [pD]; after_results
theorem segD_arg2 : after (pD (F := Ideal)) W (Proc.devRef .tc main_arg2) = W (Proc.devRef .tc main_arg2) := by
  dsimp only [pD]; after_results

end Cert.ReferenceIdeal.RefValue

end
-- ==== Proof.RefSegE.lean ====
/-
  Operations 88-113 of the reference: the hidden rows quantised, straight through.
  Read off the list of operations (in the plain spelling) for any contents W of the buffers it starts from, together
  with the buffers it leaves as they were (the three arguments among them: no operation writes an argument).
-/
import proofs.«155871_j83803401879881_1_alg».proof.Proof.RefPlain

set_option Elab.async false

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

variable (W : Valuation τ sig (Elt Ideal))

set_option maxHeartbeats 1000000 in
theorem segE_out : (after (pE (F := Ideal)) W (Proc.devRef .tc main_v57) : S8x8192x2048.Idx → EReal) = hidQ (W (Proc.devRef .tc main_v31)) := by
  dsimp only [pE]
  after_results_simp
  simp only [id]
  unfold hidQ steArr rq rscale
  with_reducible rfl
theorem segE_keep43 : after (pE (F := Ideal)) W (Proc.devRef .tc main_v43) = W (Proc.devRef .tc main_v43) := by
  dsimp only [pE]; after_results
theorem segE_arg0 : after (pE (F := Ideal)) W (Proc.devRef .tc main_arg0) = W (Proc.devRef .tc main_arg0) := by
  dsimp only [pE]; after_results
theorem segE_arg1 : after (pE (F := Ideal)) W (Proc.devRef .tc main_arg1) = W (Proc.devRef .tc main_arg1) := by
  dsimp only [pE]; after_results
theorem segE_arg2 : after (pE (F := Ideal)) W (Proc.devRef .tc main_arg2) = W (Proc.devRef .tc main_arg2) := by
  dsimp only [pE]; after_results

end Cert.ReferenceIdeal.RefValue

end
-- ==== Proof.RefSegF.lean ====
/-
  Operation 114 of the reference: the second product.
  Read off the list of operations (in the plain spelling) for any contents W of the buffers it starts from, together
  with the buffers it leaves as they were (the three arguments among them: no operation writes an argument).
-/
import proofs.«155871_j83803401879881_1_alg».proof.Proof.RefPlain

set_option Elab.async false

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

variable (W : Valuation τ sig (Elt Ideal))

theorem segF_out : (after (pF (F := Ideal)) W (Proc.devRef .tc main_v58) : S8x8192x512.Idx → EReal)
    = Host.dotGeneral (F := Ideal) (φ₁ := .f32) (φ₂ := .f32) dot_S8x8192x2048_S512x2048_S8x8192x512_2_1_01_0_n_n none (W (Proc.devRef .tc main_v57) : FVec Ideal S8x8192x2048 .f32)
        (W (Proc.devRef .tc main_v43) : FVec Ideal S512x2048 .f32) := by
  dsimp only [pF]
  after_results
theorem segF_arg0 : after (pF (F := Ideal)) W (Proc.devRef .tc main_arg0) = W (Proc.devRef .tc main_arg0) := by
  dsimp only [pF]; after_results
theorem segF_arg1 : after (pF (F := Ideal)) W (Proc.devRef .tc main_arg1) = W (Proc.devRef .tc main_arg1) := by
  dsimp only [pF]; after_results
theorem segF_arg2 : after (pF (F := Ideal)) W (Proc.devRef .tc main_arg2) = W (Proc.devRef .tc main_arg2) := by
  dsimp only [pF]; after_results

end Cert.ReferenceIdeal.RefValue

end
-- ==== Proof.RefSeg.lean ====
/-
  The reference's result as the composition of its stages.

  The six lists of operations run one after the other are the whole program, so the result buffer ends at the second
  product of the quantised hidden rows and the quantised second-layer weights, each stage applied to what the stages
  before it left; and every argument ends as it started.
-/
import proofs.«155871_j83803401879881_1_alg».proof.Proof.RefSegA
import proofs.«155871_j83803401879881_1_alg».proof.Proof.RefSegB
import proofs.«155871_j83803401879881_1_alg».proof.Proof.RefSegC
import proofs.«155871_j83803401879881_1_alg».proof.Proof.RefSegD
import proofs.«155871_j83803401879881_1_alg».proof.Proof.RefSegE
import proofs.«155871_j83803401879881_1_alg».proof.Proof.RefSegF

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

/-- The reference's result buffer after all 114 operations, from any starting contents V. -/
theorem ref_out (V : Valuation τ sig (Elt Ideal)) :
    (after (ops (F := Ideal)) V (Proc.devRef .tc main_v58) : S8x8192x512.Idx → EReal)
      = Host.dotGeneral dot_S8x8192x2048_S512x2048_S8x8192x512_2_1_01_0_n_n none
          (hidQ (hid (inQ (V (Proc.devRef .tc main_arg0))) (upW (V (Proc.devRef .tc main_arg1)))))
          (downW (V (Proc.devRef .tc main_arg2))) := by
  rw [ops_split, segA_eq, segB_eq, segC_eq, segD_eq, segE_eq, segF_eq, after_append, after_append, after_append, after_append, after_append]
  rw [segF_out, segE_out, segE_keep43, segD_out, segD_keep31, segC_out, segC_arg2, segB_out, segB_keep11, segB_arg2,
    segA_out, segA_arg0, segA_arg2]

/-- No operation writes an argument. -/
theorem ref_keep0 (V : Valuation τ sig (Elt Ideal)) : after (ops (F := Ideal)) V (Proc.devRef .tc main_arg0) = V (Proc.devRef .tc main_arg0) := by
  rw [ops_split, segA_eq, segB_eq, segC_eq, segD_eq, segE_eq, segF_eq, after_append, after_append, after_append, after_append, after_append]
  rw [segF_arg0, segE_arg0, segD_arg0, segC_arg0, segB_arg0, segA_arg0]
theorem ref_keep1 (V : Valuation τ sig (Elt Ideal)) : after (ops (F := Ideal)) V (Proc.devRef .tc main_arg1) = V (Proc.devRef .tc main_arg1) := by
  rw [ops_split, segA_eq, segB_eq, segC_eq, segD_eq, segE_eq, segF_eq, after_append, after_append, after_append, after_append, after_append]
  rw [segF_arg1, segE_arg1, segD_arg1, segC_arg1, segB_arg1, segA_arg1]
theorem ref_keep2 (V : Valuation τ sig (Elt Ideal)) : after (ops (F := Ideal)) V (Proc.devRef .tc main_arg2) = V (Proc.devRef .tc main_arg2) := by
  rw [ops_split, segA_eq, segB_eq, segC_eq, segD_eq, segE_eq, segF_eq, after_append, after_append, after_append, after_append, after_append]
  rw [segF_arg2, segE_arg2, segD_arg2, segC_arg2, segB_arg2, segA_arg2]

end Cert.ReferenceIdeal.RefValue

end
-- ==== Proof.RefRun.lean ====
/-
  The reference program's run, with its result named, and the result on finite arguments.

  Every weakly fair execution of the reference terminates with the result buffer at the composition of its five
  stages and the second product, the arguments unchanged. On arguments all of whose entries are real numbers every
  value the reference passes straight through is real, so that result is the network's output netOut.
-/
import proofs.«155871_j83803401879881_1_alg».proof.Proof.RefValue
import proofs.«155871_j83803401879881_1_alg».proof.Proof.RefSeg
import proofs.«155871_j83803401879881_1_alg».proof.Proof.Net

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.Quant

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58)
        = Host.dotGeneral dot_S8x8192x2048_S512x2048_S8x8192x512_2_1_01_0_n_n none
            (hidQ (hid (inQ (m ((c.tc : Thread nD τ).loc main_arg0))) (upW (m ((c.tc : Thread nD τ).loc main_arg1)))))
            (downW (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v58).trans (ref_out (launchContents m c)),
      (h c main_arg0).trans (ref_keep0 (launchContents m c)),
      (h c main_arg1).trans (ref_keep1 (launchContents m c)),
      (h c main_arg2).trans (ref_keep2 (launchContents m c))⟩)
    (run_raw (F := Ideal) m ρ)

/-- On finite arguments the reference's result is the network's output. -/
theorem result_eq (x : FVec Ideal S8x8192x512 .f32) (u : FVec Ideal S2048x512 .f32) (dn : FVec Ideal S512x2048 .f32)
    (hx : ∀ j, IsR (x j)) (hu : ∀ j, IsR (u j)) (hd : ∀ j, IsR (dn j)) :
    Host.dotGeneral dot_S8x8192x2048_S512x2048_S8x8192x512_2_1_01_0_n_n none (hidQ (hid (inQ x) (upW u))) (downW dn) = netOut x u dn := by
  funext j
  obtain ⟨b, s, d, rfl⟩ : ∃ (b : Fin 8) (s : Fin 8192) (d : Fin 512), j = ix3 b s d := ⟨j 0, j 1, j 2, eq_ix3 j⟩
  rw [ref_apply, netOut_apply]
  exact outRowSte_eq (fun i => hx _) (fun f i => hu _) (fun f i => tQuant_isR hu _) (fun d' f => hd _) d

end Cert.ReferenceIdeal.RefValue

end
-- ==== Proof.Finite.lean ====
/-
  From the precondition to finiteness.

  The precondition says, of each of the three argument tensors, that every magnitude |x| is below plus infinity,
  all of these conjoined into one bit. Read back: the bit is one only if each conjunct is, a conjunction over a
  whole tensor is one only if every element's comparison is, and |x| = max(x, -x) below plus infinity rules out
  both infinities. So every entry of every argument is a real number.
-/
import proofs.«155871_j83803401879881_1_alg».proof.Pre_finite_inputs
import Idealize.ShloMosaic.Lib.ReduceAll
import Idealize.ShloMosaic.Lib.ValueIdx
import proofs.«155871_j83803401879881_1_alg».proof.Proof.Weights

noncomputable section

namespace Cert.Pre_finite_inputs.Finite

open Idealize.ShloMosaic Idealize.ShloMosaic.ValueIdx Cert.Pre_finite_inputs Cert.Quant

instance : Subsingleton S_.Idx := ⟨fun a b => funext fun d => d.elim0⟩

/-- A magnitude below plus infinity is that of a real number. -/
theorem isR_of_abs_lt (x : EReal)
    (h : FloatOps.cmpf (F := Ideal) (φ := .f32) .olt (FloatOps.hostAbsf x) (Ideal.ofBits .f32 0x7F800000#32) = 1#1) : IsR x := by
  have htop : Ideal.ofBits .f32 0x7F800000#32 = ⊤ := by simp [Ideal.ofBits, Ideal.ieee]
  rw [htop] at h
  induction x using EReal.rec with
  | bot =>
    exfalso
    have h' : Ideal.cmp .olt (max (⊥ : EReal) (-⊥)) ⊤ = 1#1 := h
    rw [EReal.neg_bot, max_eq_right bot_le] at h'
    simp [Ideal.cmp] at h'
  | coe r => exact IsR.coe r
  | top =>
    exfalso
    have h' : Ideal.cmp .olt (max (⊤ : EReal) (-⊤)) ⊤ = 1#1 := h
    rw [max_eq_left le_top] at h'
    simp [Ideal.cmp] at h'

/-- One conjunct read back: if the comparison of every magnitude with plus infinity, conjoined over the tensor,
    is one, every entry is real. -/
theorem all_isR {s : Shape} {axes : List (Fin s.rank)} (a : FVec Ideal s .f32) (bc : (⟨0, ![]⟩ : Shape).BroadcastsInDim s ![])
    (hred : s.ReducesTo axes S_) (hS : 0 < S_.numel)
    (h : Host.reduce IntOp.andi (cmpf .olt (Host.absf a) (broadcastInDim s ![] bc (constant (F := Ideal) S_ .f32 0x7F800000#32)))
      (constantI S_ 1 1#1) hred hS ix0 = 1#1) (j : s.Idx) : IsR (a j) := by
  have e := Host.reduce_andi_all _ _ hred hS ix0 h j
  refine isR_of_abs_lt (a j) ?_
  have hb : broadcastInDim s ![] bc (constant (F := Ideal) S_ .f32 0x7F800000#32) j = Ideal.ofBits .f32 0x7F800000#32 :=
    bcastScalar_apply bc _ j
  rw [← hb]
  exact e

/-- The precondition gives: every entry of every argument is a real number. -/
theorem isR_of_pre [Facts] (a0 : FVec Ideal S8x8192x512 .f32) (a1 : FVec Ideal S2048x512 .f32) (a2 : FVec Ideal S512x2048 .f32)
    (h : fn (F := Ideal) a0 a1 a2 = fun _ => 1#1) :
    (∀ j, IsR (a0 j)) ∧ (∀ j, IsR (a1 j)) ∧ (∀ j, IsR (a2 j)) := by
  have h0 := congrFun h ix0
  dsimp only [fn] at h0
  obtain ⟨h8, h12⟩ := IntOp.andi_eq_one.1 h0
  obtain ⟨h3, h7⟩ := IntOp.andi_eq_one.1 h8
  exact ⟨all_isR a0 _ _ _ h3, all_isR a1 _ _ _ h7, all_isR a2 _ _ _ h12⟩

end Cert.Pre_finite_inputs.Finite

end
-- ==== Proof.lean ====
/-
  A two-layer network with eight-bit activations and three-level weights: the kernel against its reference.

  Both programs quantise the two weight tensors to three levels by their mean magnitude; quantise each token row to
  eight bits by its largest magnitude; multiply by the first layer; rectify, round and clip; quantise each hidden
  row again; multiply by the second layer. The kernel does this on blocks of 512 token rows of the input viewed as
  a 65536 x 512 matrix; the reference on the 8 x 8192 x 512 input, and it writes every quantised value v' of v as
  v + (v' - v). On the extended reals v + (v' - v) = v' whenever v is finite (it can fail for an infinite v: at
  v = +infinity the left side is -infinity whatever v' is), so the two programs agree on finite inputs, which is
  what the precondition gives: the inputs are finite by hypothesis, the scales are positive
  reals, the clipped values are bounded, and so every value passed straight through is a real number.

  Proof/Reals, Row, Net: the mathematics (finiteness, the row function in both forms and their agreement, the
  output as one function netOut of the arguments).  Proof/Cols, KBody, KHost, KArray, KRun: the kernel's result is
  netOut of the arguments.  Proof/Weights, Cols3, RefStages, RefPlain, RefSegA .. RefSegF, RefSeg, RefValue, RefRun:
  the reference's result is netOut of finite arguments, and its arguments end unchanged.  Proof/Finite: the
  precondition makes the arguments finite.
-/
import proofs.«155871_j83803401879881_1_alg».proof.Defs
import proofs.«155871_j83803401879881_1_alg».proof.Proof.Gen.Kernel
import proofs.«155871_j83803401879881_1_alg».proof.Proof.Gen.Kernel.Frame
import proofs.«155871_j83803401879881_1_alg».proof.Proof.Gen.KernelIdeal
import proofs.«155871_j83803401879881_1_alg».proof.Proof.Gen.KernelIdeal.Frame
import proofs.«155871_j83803401879881_1_alg».proof.Proof.Gen.ReferenceIdeal
import proofs.«155871_j83803401879881_1_alg».proof.Proof.Gen.Pre_finite_inputs
import proofs.«155871_j83803401879881_1_alg».proof.Proof.KRun
import proofs.«155871_j83803401879881_1_alg».proof.Proof.RefRun
import proofs.«155871_j83803401879881_1_alg».proof.Proof.Finite

noncomputable section

namespace Cert.Proof

open Idealize.ShloMosaic Idealize.ShloMosaic.TcCoe Idealize.SL.Sem Cert.Quant

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.RefValue.run m ρ)

/-- The idealised kernel is the printed kernel's own text: nothing was rewritten, nothing to preserve. -/
theorem preserves : Cert.preserves_Kernel_KernelIdeal := trivial

/-- From memories agreeing on finite arguments both programs end with the network's output netOut of the
    arguments: the kernel always, the reference because its arguments are finite. -/
theorem algebraic : Cert.algebraic_KernelIdeal_ReferenceIdeal := by
  intro m ρ m' ρ' hpre hagree
  refine ⟨fun c => netOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.RefValue.run m' ρ')
  obtain ⟨h0, h1, h2⟩ := Cert.Pre_finite_inputs.Finite.isR_of_pre _ _ _ (hpre c)
  rw [(hagree c).1, (hagree c).2.1, (hagree c).2.2]
  exact Cert.ReferenceIdeal.RefValue.result_eq _ _ _ h0 h1 h2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
